-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x16x16x16 : Shape := ⟨5, ![8, 512, 16, 16, 16]⟩
abbrev S512x32 : Shape := ⟨2, ![512, 32]⟩
abbrev S32 : Shape := ⟨1, ![32]⟩
abbrev S32x512 : Shape := ⟨2, ![32, 512]⟩
abbrev S512 : Shape := ⟨1, ![512]⟩
abbrev S_ : Shape := ⟨0, ![]⟩

class Facts : Prop where
  bcast_S_S8x512x16x16x16 : S_.BroadcastsInDim S8x512x16x16x16 (![] : Fin 0 → Fin S8x512x16x16x16.rank)
  reducesTo_S8x512x16x16x16_S_d0_1_2_3_4 : S8x512x16x16x16.ReducesTo [0, 1, 2, 3, 4] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x512 : S_.BroadcastsInDim S32x512 (![] : Fin 0 → Fin S32x512.rank)
  reducesTo_S32x512_S_d0_1 : S32x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S8x512x16x16x16 .f32) (main_arg1 : FVec F S512x32 .f32) (main_arg2 : FVec F S32 .f32) (main_arg3 : FVec F S32x512 .f32) (main_arg4 : FVec F S512 .f32) : IVec S_ 1 :=
  let main_v0 : FVec F S8x512x16x16x16 .f32 := Host.absf main_arg0
  let main_cst : FVec F S_ .f32 := constant S_ .f32 0x7F800000#32
  let main_v1 : FVec F S8x512x16x16x16 .f32 := broadcastInDim S8x512x16x16x16 ![] bcast_S_S8x512x16x16x16 main_cst
  let main_v2 : IVec S8x512x16x16x16 1 := cmpf .olt main_v0 main_v1
  let main_c : IVec S_ 1 := constantI S_ 1 1#1
  let main_v3 : IVec S_ 1 := (fun x v => Host.reduce IntOp.andi x v reducesTo_S8x512x16x16x16_S_d0_1_2_3_4 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x512 .f32 := Host.absf main_arg3
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg4 main_v13 main_v16
-- ==== Kernel.lean ====
abbrev S8x512x16x16x16 : Shape := ⟨5, ![8, 512, 16, 16, 16]⟩
abbrev S512x32 : Shape := ⟨2, ![512, 32]⟩
abbrev S32 : Shape := ⟨1, ![32]⟩
abbrev S32x512 : Shape := ⟨2, ![32, 512]⟩
abbrev S512 : Shape := ⟨1, ![512]⟩
abbrev S8x16x16x16x512 : Shape := ⟨5, ![8, 16, 16, 16, 512]⟩
abbrev S8x4096x512 : Shape := ⟨3, ![8, 4096, 512]⟩
abbrev S1x32 : Shape := ⟨2, ![1, 32]⟩
abbrev S1x512 : Shape := ⟨2, ![1, 512]⟩
abbrev S1x4096x512 : Shape := ⟨3, ![1, 4096, 512]⟩
abbrev S4096x512 : Shape := ⟨2, ![4096, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x512x16x16x16, .f32⟩
  | .hbm, ⟨1, _⟩ => ⟨S512x32, .f32⟩
  | .hbm, ⟨2, _⟩ => ⟨S32, .f32⟩
  | .hbm, ⟨3, _⟩ => ⟨S32x512, .f32⟩
  | .hbm, ⟨4, _⟩ => ⟨S512, .f32⟩
  | .hbm, ⟨5, _⟩ => ⟨S8x16x16x16x512, .f32⟩
  | .hbm, ⟨6, _⟩ => ⟨S8x4096x512, .f32⟩
  | .hbm, ⟨7, _⟩ => ⟨S1x32, .f32⟩
  | .hbm, ⟨8, _⟩ => ⟨S1x512, .f32⟩
  | .hbm, ⟨9, _⟩ => ⟨S8x4096x512, .f32⟩
  | .hbm, ⟨10, _⟩ => ⟨S8x16x16x16x512, .f32⟩
  | .hbm, ⟨11, _⟩ => ⟨S8x512x16x16x16, .f32⟩
  | .local _ .vmem, ⟨0, _⟩ => ⟨S1x4096x512, .f32⟩
  | .local _ .vmem, ⟨1, _⟩ => ⟨S1x4096x512, .f32⟩
  | .local _ .vmem, ⟨2, _⟩ => ⟨S512x32, .f32⟩
  | .local _ .vmem, ⟨3, _⟩ => ⟨S1x32, .f32⟩
  | .local _ .vmem, ⟨4, _⟩ => ⟨S32x512, .f32⟩
  | .local _ .vmem, ⟨5, _⟩ => ⟨S1x512, .f32⟩
  | .local _ .vmem, ⟨6, _⟩ => ⟨S1x4096x512, .f32⟩
  | .local _ .vmem, ⟨7, _⟩ => ⟨S1x4096x512, .f32⟩
  | _, _ => ⟨S8x512x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S8x512x16x16x16_S8x16x16x16x512_0_2_3_4_1 : S8x512x16x16x16.Transposes [0, 2, 3, 4, 1] S8x16x16x16x512
  shapeCasts_S8x16x16x16x512_S8x4096x512 : S8x16x16x16x512.ShapeCasts S8x4096x512
  shapeCasts_S32_S1x32 : S32.ShapeCasts S1x32
  shapeCasts_S512_S1x512 : S512.ShapeCasts S1x512
  inb_S1x4096x512_S1x4096x512_0_0_0 : ∀ a, (![0, 0, 0] : Fin 3 → Nat) a + S1x4096x512.size a ≤ S1x4096x512.size a
  h_S1x4096x512 : 0 < S1x4096x512.numel
  shapeCasts_S1x4096x512_S4096x512 : S1x4096x512.ShapeCasts S4096x512
  reduces_S4096x512_S512 : S4096x512.Reduces [0] S512
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S32x512_S32x512_0_0 : ∀ a, (![0, 0] : Fin 2 → Nat) a + S32x512.size a ≤ S32x512.size a
  h_S32x512 : 0 < S32x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S4096x512 : S1x512.Broadcasts S4096x512
  shapeCasts_S4096x512_S1x4096x512 : S4096x512.ShapeCasts S1x4096x512
  shapeCasts_S8x4096x512_S8x16x16x16x512 : S8x4096x512.ShapeCasts S8x16x16x16x512
  transposes_S8x16x16x16x512_S8x512x16x16x16_0_4_1_2_3 : S8x16x16x16x512.Transposes [0, 4, 1, 2, 3] S8x512x16x16x16
  dot_S1x512_S512x32_S1x32_1_0_0_1_n_n_wf : DotDims.WF S1x512 S512x32 S1x32 [1] [0] [0] [1] [] []
  dot_S1x32_S32x512_S1x512_1_0_0_1_n_n_wf : DotDims.WF S1x32 S32x512 S1x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x512.size a ≤ S8x4096x512.size a
  hwx0_0 : ∀ i : grid0.Coords, EltTy.bits .f32 = 32 ∨ (Rect.block (s := S8x4096x512) S1x4096x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4096x512.size a ≤ S8x4096x512.size a
  hwx0_5 : ∀ i : grid0.Coords, EltTy.bits .f32 = 32 ∨ (Rect.block (s := S8x4096x512) S1x4096x512.size (cc0_transform_5 i) (hinb0_5 i)).WholeWords (EltTy.packing .f32)

variable [Facts₀]

def dot_S1x512_S512x32_S1x32_1_0_0_1_n_n : DotDims S1x512 S512x32 S1x32 where
  lhsContracting := [1]
  rhsContracting := [0]
  lhsNonContracting := [0]
  rhsNonContracting := [1]
  lhsBatch := []
  rhsBatch := []
  wf := dot_S1x512_S512x32_S1x32_1_0_0_1_n_n_wf
def dot_S1x32_S32x512_S1x512_1_0_0_1_n_n : DotDims S1x32 S32x512 S1x512 where
  lhsContracting := [1]
  rhsContracting := [0]
  lhsNonContracting := [0]
  rhsNonContracting := [1]
  lhsBatch := []
  rhsBatch := []
  wf := dot_S1x32_S32x512_S1x512_1_0_0_1_n_n_wf

abbrev win0_0 : Pipeline.Window sig grid0 :=
  Pipeline.Window.ofSpec (Memref.whole main_v1) S1x4096x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x16x16x16 : Shape := ⟨5, ![8, 512, 16, 16, 16]⟩
abbrev S512x32 : Shape := ⟨2, ![512, 32]⟩
abbrev S32 : Shape := ⟨1, ![32]⟩
abbrev S32x512 : Shape := ⟨2, ![32, 512]⟩
abbrev S512 : Shape := ⟨1, ![512]⟩
abbrev S8x512x4096 : Shape := ⟨3, ![8, 512, 4096]⟩
abbrev S8x512x1 : Shape := ⟨3, ![8, 512, 1]⟩
abbrev S1x512x2048 : Shape := ⟨3, ![1, 512, 2048]⟩
abbrev S1x512x1 : Shape := ⟨3, ![1, 512, 1]⟩
abbrev S1x512 : Shape := ⟨2, ![1, 512]⟩
abbrev S8x512 : Shape := ⟨2, ![8, 512]⟩
abbrev S_ : Shape := ⟨0, ![]⟩
abbrev S8x32 : Shape := ⟨2, ![8, 32]⟩
abbrev S1x32 : Shape := ⟨2, ![1, 32]⟩

abbrev nBuf : Space → Nat
  | .hbm => 33
  | .vmem => 10
  | .smem => 0
  | _ => 0

abbrev bufTy : (tb : Table) → Fin (tcTables nBuf tb) → BufTy
  | .hbm, ⟨0, _⟩ => ⟨S8x512x16x16x16, .f32⟩
  | .hbm, ⟨1, _⟩ => ⟨S512x32, .f32⟩
  | .hbm, ⟨2, _⟩ => ⟨S32, .f32⟩
  | .hbm, ⟨3, _⟩ => ⟨S32x512, .f32⟩
  | .hbm, ⟨4, _⟩ => ⟨S512, .f32⟩
  | .hbm, ⟨5, _⟩ => ⟨S8x512x4096, .f32⟩
  | .hbm, ⟨6, _⟩ => ⟨S8x512x1, .f32⟩
  | .hbm, ⟨7, _⟩ => ⟨S8x512, .f32⟩
  | .hbm, ⟨8, _⟩ => ⟨S_, .f32⟩
  | .hbm, ⟨9, _⟩ => ⟨S8x512, .f32⟩
  | .hbm, ⟨10, _⟩ => ⟨S8x512, .f32⟩
  | .hbm, ⟨11, _⟩ => ⟨S8x32, .f32⟩
  | .hbm, ⟨12, _⟩ => ⟨S1x32, .f32⟩
  | .hbm, ⟨13, _⟩ => ⟨S8x32, .f32⟩
  | .hbm, ⟨14, _⟩ => ⟨S8x32, .f32⟩
  | .hbm, ⟨15, _⟩ => ⟨S_, .f32⟩
  | .hbm, ⟨16, _⟩ => ⟨S8x32, .f32⟩
  | .hbm, ⟨17, _⟩ => ⟨S8x32, .f32⟩
  | .hbm, ⟨18, _⟩ => ⟨S8x512, .f32⟩
  | .hbm, ⟨19, _⟩ => ⟨S1x512, .f32⟩
  | .hbm, ⟨20, _⟩ => ⟨S8x512, .f32⟩
  | .hbm, ⟨21, _⟩ => ⟨S8x512, .f32⟩
  | .hbm, ⟨22, _⟩ => ⟨S8x512, .f32⟩
  | .hbm, ⟨23, _⟩ => ⟨S8x512, .f32⟩
  | .hbm, ⟨24, _⟩ => ⟨S_, .f32⟩
  | .hbm, ⟨25, _⟩ => ⟨S8x512, .f32⟩
  | .hbm, ⟨26, _⟩ => ⟨S8x512, .f32⟩
  | .hbm, ⟨27, _⟩ => ⟨S_, .f32⟩
  | .hbm, ⟨28, _⟩ => ⟨S8x512, .f32⟩
  | .hbm, ⟨29, _⟩ => ⟨S8x512, .f32⟩
  | .hbm, ⟨30, _⟩ => ⟨S8x512x1, .f32⟩
  | .hbm, ⟨31, _⟩ => ⟨S8x512x4096, .f32⟩
  | .hbm, ⟨32, _⟩ => ⟨S8x512x16x16x16, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1, .f32⟩
  | .local _ .vmem, ⟨3, _⟩ => ⟨S1x512x1, .f32⟩
  | .local _ .vmem, ⟨4, _⟩ => ⟨S1x512x2048, .f32⟩
  | .local _ .vmem, ⟨5, _⟩ => ⟨S1x512x2048, .f32⟩
  | .local _ .vmem, ⟨6, _⟩ => ⟨S1x512x1, .f32⟩
  | .local _ .vmem, ⟨7, _⟩ => ⟨S1x512x1, .f32⟩
  | .local _ .vmem, ⟨8, _⟩ => ⟨S1x512x2048, .f32⟩
  | .local _ .vmem, ⟨9, _⟩ => ⟨S1x512x2048, .f32⟩
  | _, _ => ⟨S8x512x16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S8x512x16x16x16_S8x512x4096 : S8x512x16x16x16.ShapeCasts S8x512x4096
  inb_S1x512x1_S1x512x1_0_0_0 : ∀ a, (![0, 0, 0] : Fin 3 → Nat) a + S1x512x1.size a ≤ S1x512x1.size a
  h_S1x512x1 : 0 < S1x512x1.numel
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S1x512x2048 : S1x512x2048.ShapeCasts S1x512x2048
  shapeCasts_S1x512x1_S1x512x1 : S1x512x1.ShapeCasts S1x512x1
  reduces_S1x512x2048_S1x512 : S1x512x2048.Reduces [2] S1x512
  shapeCasts_S1x512_S1x512x1 : S1x512.ShapeCasts S1x512x1
  shapeCasts_S8x512x1_S8x512 : S8x512x1.ShapeCasts S8x512
  bcast_S_S8x512 : S_.BroadcastsInDim S8x512 (![] : Fin 0 → Fin S8x512.rank)
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  bcast_S_S8x32 : S_.BroadcastsInDim S8x32 (![] : Fin 0 → Fin S8x32.rank)
  bcast_S512_S1x512_1 : S512.BroadcastsInDim S1x512 (![1] : Fin 1 → Fin S1x512.rank)
  bcast_S1x512_S8x512_0_1 : S1x512.BroadcastsInDim S8x512 (![0, 1] : Fin 2 → Fin S8x512.rank)
  bcast_S8x512_S8x512x1_0_1 : S8x512.BroadcastsInDim S8x512x1 (![0, 1] : Fin 2 → Fin S8x512x1.rank)
  broadcasts_S1x512x1_S1x512x2048 : S1x512x1.Broadcasts S1x512x2048
  shapeCasts_S8x512x4096_S8x512x16x16x16 : S8x512x4096.ShapeCasts S8x512x16x16x16
  dot_S8x512_S512x32_S8x32_1_0_0_1_n_n_wf : DotDims.WF S8x512 S512x32 S8x32 [1] [0] [0] [1] [] []
  dot_S8x32_S32x512_S8x512_1_0_0_1_n_n_wf : DotDims.WF S8x32 S32x512 S8x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x512x4096.size a
  hwx0_0 : ∀ i : grid0.Coords, EltTy.bits .f32 = 32 ∨ (Rect.block (s := S8x512x4096) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1.size a ≤ S8x512x1.size a
  hwx0_1 : ∀ i : grid0.Coords, EltTy.bits .f32 = 32 ∨ (Rect.block (s := S8x512x1) S1x512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x2048.size a ≤ S8x512x4096.size a
  hwx1_0 : ∀ i : grid1.Coords, EltTy.bits .f32 = 32 ∨ (Rect.block (s := S8x512x4096) S1x512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1.size a ≤ S8x512x1.size a
  hwx1_1 : ∀ i : grid1.Coords, EltTy.bits .f32 = 32 ∨ (Rect.block (s := S8x512x1) S1x512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S8x512x4096.size a
  hwx1_2 : ∀ i : grid1.Coords, EltTy.bits .f32 = 32 ∨ (Rect.block (s := S8x512x4096) S1x512x2048.size (cc1_transform_2 i) (hinb1_2 i)).WholeWords (EltTy.packing .f32)

variable [Facts₀]

def dot_S8x512_S512x32_S8x32_1_0_0_1_n_n : DotDims S8x512 S512x32 S8x32 where
  lhsContracting := [1]
  rhsContracting := [0]
  lhsNonContracting := [0]
  rhsNonContracting := [1]
  lhsBatch := []
  rhsBatch := []
  wf := dot_S8x512_S512x32_S8x32_1_0_0_1_n_n_wf
def dot_S8x32_S32x512_S8x512_1_0_0_1_n_n : DotDims S8x32 S32x512 S8x512 where
  lhsContracting := [1]
  rhsContracting := [0]
  lhsNonContracting := [0]
  rhsNonContracting := [1]
  lhsBatch := []
  rhsBatch := []
  wf := dot_S8x32_S32x512_S8x512_1_0_0_1_n_n_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1x512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== Proof.Spec.lean ====
/-
  The function both programs compute, stated once over the five argument arrays.

  x : [8, 512, 16, 16, 16] (batch n, channel c, three spatial axes), w1 : [512, 32], b1 : [32], w2 : [32, 512], b2 : [512].
  For a batch entry n:
    pooled n c   = the sum of x over the 4096 spatial positions of channel c,
    hidden n j   = max (sum over c of (pooled n c * r) * w1 c j + b1 j) 0,
    gate n c     = logistic (sum over j of hidden n j * w2 j c + b2 c),
    out n c d h w = x n c d h w * gate n c.
  The scale r stands for 1/4096; it is left a parameter, so that the one place where a product by 2^-12 meets a quotient
  by 4096 is a single law on the extended reals (scale_eq below).  Nothing here needs an entry to be finite: only sums,
  products and maxima taken in the same order on both sides, and one division by a nonzero real.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The spatial position `s < 4096` of channel `c` of batch entry `n`, as an index of the rank-5 array: the three spatial
    coordinates are the base-16 digits of `s`. -/
def cell (n : Fin 8) (c : Fin 512) (s : Fin 4096) : (⟨5, ![8, 512, 16, 16, 16]⟩ : Shape).Idx :=
  ix5 n c (⟨s.val / 256, by have := s.isLt; omega⟩ : Fin 16) (⟨s.val / 16 % 16, by omega⟩ : Fin 16) (⟨s.val % 16, by omega⟩ : Fin 16)

/-- The spatial position of three spatial coordinates. -/
def pos (d h w : Fin 16) : Fin 4096 := ⟨(d.val * 16 + h.val) * 16 + w.val, by have := d.isLt; have := h.isLt; have := w.isLt; omega⟩

theorem cell_pos (n : Fin 8) (c : Fin 512) (d h w : Fin 16) : cell n c (pos d h w) = ix5 n c d h w := by
  have := d.isLt; have := h.isLt; have := w.isLt
  funext a
  match a with
  | ⟨0, _⟩ => rfl
  | ⟨1, _⟩ => rfl
  | ⟨2, _⟩ => exact Fin.ext (by show ((d.val * 16 + h.val) * 16 + w.val) / 256 = d.val; omega)
  | ⟨3, _⟩ => exact Fin.ext (by show ((d.val * 16 + h.val) * 16 + w.val) / 16 % 16 = h.val; omega)
  | ⟨4, _⟩ => exact Fin.ext (by show ((d.val * 16 + h.val) * 16 + w.val) % 16 = w.val; omega)

variable (r : EReal)
  (x : (⟨5, ![8, 512, 16, 16, 16]⟩ : Shape).Idx → EReal) (w1 : (⟨2, ![512, 32]⟩ : Shape).Idx → EReal)
  (b1 : (⟨1, ![32]⟩ : Shape).Idx → EReal) (w2 : (⟨2, ![32, 512]⟩ : Shape).Idx → EReal) (b2 : (⟨1, ![512]⟩ : Shape).Idx → EReal)

/-- The sum of channel `c` of batch entry `n` over its 4096 spatial positions. -/
def pooled (n : Fin 8) (c : Fin 512) : EReal := ∑ s : Fin 4096, x (cell n c s)

/-- The hidden layer: the scaled pooled row times `w1`, plus `b1`, cut below at zero. -/
def hidden (n : Fin 8) (j : Fin 32) : EReal := max ((∑ c : Fin 512, (pooled x n c * r) * w1 (ix2 c j)) + b1 (ix1 j)) 0

/-- The gate: the logistic function of the hidden row times `w2`, plus `b2`. -/
def gate (n : Fin 8) (c : Fin 512) : EReal := Ideal.logistic ((∑ j : Fin 32, hidden r x w1 b1 n j * w2 (ix2 j c)) + b2 (ix1 c))

/-- The result: every entry of `x` times the gate of its batch entry and channel. -/
def out : (⟨5, ![8, 512, 16, 16, 16]⟩ : Shape).Idx → EReal := fun i => x i * gate r x w1 b1 w2 b2 (i 0) (i 1)

end Cert.Spec

end
-- ==== Proof.RefBodies.lean ====
import proofs.«146628_g2000006015755092_pallasbulk_264_5_alg».proof.Proof.Spec
import proofs.«146628_g2000006015755092_pallasbulk_264_5_alg».proof.Proof.Gen.ReferenceIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)

/-!
  What each kernel body of the reference leaves in its output block, as a value.

  The pooling body, at the first spatial tile of a batch entry, stores a block of zeros, reads it back and stores the zeros
  plus the tile's lane sums; at the second tile it stores what the block held plus that tile's lane sums.  The scaling body
  stores its input tile times the gate column broadcast along the lanes.
-/

namespace Cert.ReferenceIdeal.RValue
open Cert.ReferenceIdeal Cert.ReferenceIdeal.Gen

theorem hz3 : (![0, 0, 0] : Fin 3 → Nat) = fun _ => 0 := funext fun a => by fin_cases a <;> rfl

section AnyF
variable {F : FTy → Type} [FloatOps F]

/-- Second tile: the block ends at the accumulating payload of the input tile and of what the block held. -/
theorem out_B (c : Dev nD) (i : grid0.Coords) (a2 : Memref sig .tc .vmem S1x512x2048 .f32) (h2 : a2.IsWhole)
    (a3 : Memref sig .tc .vmem S1x512x1 .f32) (h3 : a3.IsWhole) (hc : ¬cond0_0 i) (x : Vec F S1x512x2048 .f32) (xo : Vec F S1x512x1 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz3]
  simp only [View.readAt_eq_ld, h2.read_unread, h3.read_unread, View.ld_unit_zero (S := S1x512x2048) hz3,
    View.ld_unit_zero (S := S1x512x1) hz3]

/-- First tile: the zero block is stored, read back, and the accumulating payload of the tile and the zeros is stored over it. -/
theorem out_A (c : Dev nD) (i : grid0.Coords) (a2 : Memref sig .tc .vmem S1x512x2048 .f32) (h2 : a2.IsWhole)
    (a3 : Memref sig .tc .vmem S1x512x1 .f32) (h3 : a3.IsWhole) (hc : cond0_0 i) (x : Vec F S1x512x2048 .f32) :
    out0_A_1 c i a2 h2 a3 h3 hc x = k0_pay2 x k0_pay1 := by
  unfold out0_A_1
  rw [View.read_writes_eq_canon _ _ _ (cover0_A_1 c i a2 h2 a3 h3 hc x)]
  unfold kernelRun0_A
  dsimp only
  sl_unfold_words
  rw [View.canon_cons_unit_zero (S := S1x512x1) hz3, View.readCov_unit_zero (S := S1x512x1) _ hz3]
  simp only [View.readAt_eq_ld, h2.read_unread, View.ld_unit_zero (S := S1x512x2048) hz3]

/-- The scaling body's block: its one covering store's payload of the gate column and the input tile. -/
theorem out1 (x0 : Vec F S1x512x2048 .f32) (x1 : Vec F S1x512x1 .f32) : out1_2 x0 x1 = k1_pay1 x1 x0 := by
  unfold out1_2
  rw [View.canon_unit_zero hz3]
  simp only [View.ld_unit_zero (S := S1x512x2048) hz3, View.ld_unit_zero (S := S1x512x1) hz3]

end AnyF

/-! ## The payloads at an index, on the extended reals -/

/-- The zero block reads zero everywhere. -/
theorem pay_zero (j : S1x512x1.Idx) : (k0_pay1 (F := Ideal)) j = 0 := by
  unfold k0_pay1
  exact Ideal.ofBits_zero_f32

/-- The lane sum over the last axis of a [1, 512, 2048] tile, at row `c`. -/
theorem laneSum_apply (x : FVec Ideal S1x512x2048 .f32) (hacc : (0x00000000#32 : BitVec 32) = 0x00000000#32)
    (u : Fin 1) (c : Fin 512) :
    multiReduction .add [2] S1x512 x 0x00000000#32 reduces_S1x512x2048_S1x512 (.inl rfl) hacc (ix2 u c)
      = ∑ l : Fin 2048, x (ix3 u c l) := by
  refine (Ideal.multiReduction_add_single x 0x00000000#32 reduces_S1x512x2048_S1x512 (.inl rfl) hacc (ix2 u c)).trans ?_
  refine Finset.sum_congr rfl fun l _ => congrArg x ?_
  funext a
  match a with
  | ⟨0, _⟩ => rfl
  | ⟨1, _⟩ => rfl
  | ⟨2, _⟩ => rfl

/-- A [1, 512] row of sums seen as a [1, 512, 1] column. -/
theorem column_apply {α : Type} (v : S1x512.Idx → α) (u : Fin 1) (c : Fin 512) (z : Fin 1) :
    shapeCast S1x512x1 v shapeCasts_S1x512_S1x512x1 (ix3 u c z) = v (ix2 u c) :=
  shapeCast_apply v _ _ _ (by
    have hz : z.val = 0 := by omega
    rw [Shape.rowMajor_val_two, Shape.rowMajor_val_three]
    show u.val * 512 + c.val = (u.val * 512 + c.val) * 1 + z.val
    omega)

/-- The accumulating payload at row `c`: what the block held there plus the tile's sum over its 2048 lanes. -/
theorem pay_acc_apply (x : Vec Ideal S1x512x2048 .f32) (xo : Vec Ideal S1x512x1 .f32) (u : Fin 1) (c : Fin 512) (z : Fin 1) :
    k0_pay2 x xo (ix3 u c z) = xo (ix3 u c z) + ∑ l : Fin 2048, x (ix3 u c l) := by
  unfold k0_pay2
  dsimp only
  rw [shapeCast_self, shapeCast_self]
  refine (addf_apply _ _ _).trans ?_
  rw [column_apply]
  exact congrArg (xo (ix3 u c z) + ·) (laneSum_apply x rfl u c)

/-- A [1, 512, 1] column broadcast along 2048 lanes. -/
theorem lanes_apply {α : Type} (g : S1x512x1.Idx → α) (u : Fin 1) (c : Fin 512) (l : Fin 2048) :
    broadcastTo S1x512x2048 g broadcasts_S1x512x1_S1x512x2048 (ix3 u c l) = g (ix3 u c (0 : Fin 1)) := by
  refine broadcastTo_apply g _ (ix3 u c l) (ix3 u c (0 : Fin 1)) fun ax => ?_
  match ax with
  | ⟨0, _⟩ => show u.val = if (1 : Nat) = 1 then 0 else u.val; rw [if_pos rfl]; omega
  | ⟨1, _⟩ => show c.val = if (512 : Nat) = 1 then 0 else c.val; rw [if_neg (by decide)]
  | ⟨2, _⟩ => show (0 : Nat) = if (1 : Nat) = 1 then 0 else l.val; rw [if_pos rfl]

/-- The scaling payload at an index: the tile's entry times the gate of its row. -/
theorem pay_scale_apply (g : Vec Ideal S1x512x1 .f32) (x : Vec Ideal S1x512x2048 .f32) (u : Fin 1) (c : Fin 512) (l : Fin 2048) :
    k1_pay1 g x (ix3 u c l) = x (ix3 u c l) * g (ix3 u c (0 : Fin 1)) := by
  unfold k1_pay1
  rw [shapeCast_self, shapeCast_self]
  refine (mulf_apply _ _ _).trans ?_
  rw [lanes_apply]

end Cert.ReferenceIdeal.RValue
end
-- ==== Proof.RefSums.lean ====
import proofs.«146628_g2000006015755092_pallasbulk_264_5_alg».proof.Proof.Spec
import proofs.«146628_g2000006015755092_pallasbulk_264_5_alg».proof.Proof.Gen.ReferenceIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«146628_g2000006015755092_pallasbulk_264_5_alg».proof.Proof.RefBodies

noncomputable section

open Idealize.ShloMosaic Idealize.ShloMosaic.TcCoe Idealize.SL.Sem Idealize.ShloMosaic.ValueIdx
open Idealize.ShloMosaic.Pipeline (Dat)

/-!
  The pooling call's result array: for each batch entry and channel, the sum over the first 2048 spatial positions, from
  zero, plus the sum over the last 2048.

  The grid is 8 × 2 (batch entry, spatial tile), row-major, so point t works on batch entry t / 2 and tile t % 2.  The
  output block of a batch entry stays in place over its two points and is written back after the second; what it holds then
  is the second tile's payload over the first tile's payload over zeros.
-/

namespace Cert.ReferenceIdeal.RValue
open Cert.ReferenceIdeal Cert.ReferenceIdeal.Gen

variable (V : (c : Dev nD) → (b : Ref sig .tc) → Buf (Elt Ideal) ((c : Thread nD τ).loc b))

/-- The two-tile sum of row (n, c) of a [8, 512, 4096] array. -/
def rowSum (X : S8x512x4096.Idx → EReal) (n : Fin 8) (c : Fin 512) : EReal :=
  (0 + ∑ l : Fin 2048, X (ix3 n c (⟨l.val, by have := l.isLt; omega⟩ : Fin 4096)))
    + ∑ l : Fin 2048, X (ix3 n c (⟨2048 + l.val, by have := l.isLt; omega⟩ : Fin 4096))

/-- The pooling call's result array, from the array it reads as the call finds it. -/
def sums (c : Dev nD) : S8x512x1.Idx → EReal := fun i => rowSum (V c main_v0) (i 0) (i 1)

/-- The printed index maps over the grid: the input tile of point t is block (t / 2, 0, t % 2), the output block (t / 2, 0, 0). -/
theorem idx0 : ∀ t : Fin cfg0.N, win0_0.index t (0 : Fin 3) = t.val / 2 ∧ win0_0.index t (1 : Fin 3) = 0
    ∧ win0_0.index t (2 : Fin 3) = t.val % 2 ∧ win0_1.index t (0 : Fin 3) = t.val / 2 ∧ win0_1.index t (1 : Fin 3) = 0
    ∧ win0_1.index t (2 : Fin 3) = 0 :=
  (by decide +kernel : ∀ t : Fin grid0.N, _)

/-- What an odd point writes back is its block of `sums`. -/
theorem flushed0_eq (c : Dev nD) (t : Fin cfg0.N) (hf : (cfg0.win 1).flush t = true) :
    (dat0 V c).flushed 1 t = ((cfg0.win 1).blk t).view.read (Elt Ideal) (sums V c) := by
  have hN : t.val < 16 := lt_of_lt_of_eq t.isLt (show cfg0.N = 16 from N_0)
  have hodd : t.val % 2 = 1 := (flush0_1 t).mp hf
  have hB : ¬t.val % 2 = 0 := by omega
  have hlt : t.val - 1 < cfg0.N := Nat.lt_of_le_of_lt (Nat.sub_le _ _) t.isLt
  have hA : (⟨t.val - 1, hlt⟩ : Fin cfg0.N).val % 2 = 0 := by show (t.val - 1) % 2 = 0; omega
  show (cfg0.win 1).cut (grid0.coords t) ((dat0 V c).after 1 t) = _
  rw [after0_1, outsAt0_B V c t hB, out_B]
  have e := outsAt0_A V c ⟨t.val - 1, hlt⟩ hA
  rw [out_A] at e
  rw [show outsAt0 V c (t.val - 1) hlt = _ from e]
  obtain ⟨p0, p1, p2, q0, q1, q2⟩ := idx0 t
  obtain ⟨r0, r1, r2, -, -, -⟩ := idx0 ⟨t.val - 1, hlt⟩
  have key : ∀ y : S1x512x1.Idx, k0_pay2 (iblk0 V c 0 t) (k0_pay2 (iblk0 V c 0 ⟨t.val - 1, hlt⟩) (k0_pay1 (F := Ideal))) y
      = sums V c (((cfg0.win 1).blk t).view.emb y) := by
    intro y
    obtain ⟨u, c', z, rfl⟩ : ∃ (u : Fin 1) (c' : Fin 512) (z : Fin 1), y = ix3 u c' z := ⟨y 0, y 1, y 2, eq_ix3 y⟩
    rw [pay_acc_apply, pay_acc_apply, pay_zero]
    have hu : u.val = 0 := by omega
    have hz : z.val = 0 := by omega
    unfold sums rowSum
    refine congrArg₂ (· + ·) (congrArg (0 + ·) (Finset.sum_congr rfl fun l _ => ?_)) (Finset.sum_congr rfl fun l _ => ?_)
    · show V c main_v0 (((cfg0.win 0).blk ⟨t.val - 1, hlt⟩).view.emb (ix3 u c' l)) = V c main_v0 _
      refine congrArg (V c main_v0) (funext fun a => Fin.ext ?_)
      match a with
      | ⟨0, _⟩ =>
        show win0_0.index ⟨t.val - 1, hlt⟩ (0 : Fin 3) * 1 + 1 * u.val = win0_1.index t (0 : Fin 3) * 1 + 1 * u.val
        rw [r0, q0]; show (t.val - 1) / 2 * 1 + 1 * u.val = t.val / 2 * 1 + 1 * u.val; omega
      | ⟨1, _⟩ =>
        show win0_0.index ⟨t.val - 1, hlt⟩ (1 : Fin 3) * 512 + 1 * c'.val = win0_1.index t (1 : Fin 3) * 512 + 1 * c'.val
        rw [r1, q1]
      | ⟨2, _⟩ =>
        show win0_0.index ⟨t.val - 1, hlt⟩ (2 : Fin 3) * 2048 + 1 * l.val = l.val
        rw [r2]; show (t.val - 1) % 2 * 2048 + 1 * l.val = l.val; omega
    · show V c main_v0 (((cfg0.win 0).blk t).view.emb (ix3 u c' l)) = V c main_v0 _
      refine congrArg (V c main_v0) (funext fun a => Fin.ext ?_)
      match a with
      | ⟨0, _⟩ =>
        show win0_0.index t (0 : Fin 3) * 1 + 1 * u.val = win0_1.index t (0 : Fin 3) * 1 + 1 * u.val
        rw [p0, q0]
      | ⟨1, _⟩ =>
        show win0_0.index t (1 : Fin 3) * 512 + 1 * c'.val = win0_1.index t (1 : Fin 3) * 512 + 1 * c'.val
        rw [p1, q1]
      | ⟨2, _⟩ =>
        show win0_0.index t (2 : Fin 3) * 2048 + 1 * l.val = 2048 + l.val
        rw [p2]; omega
  funext j
  exact key j

/-- An index of the result array lies in point t's output block iff each coordinate lies in the block's range. -/
theorem mem_blk0 (t : Fin cfg0.N) (i : S8x512x1.Idx) :
    i ∈ ((cfg0.win 1).blk t).view.set ↔ ∀ a : Fin 3, win0_1.index t a * S1x512x1.size a ≤ (i a).val
      ∧ (i a).val < win0_1.index t a * S1x512x1.size a + S1x512x1.size a := by
  show i ∈ ((View.whole main_v1).slice (win0_1.rect t)).set ↔ _
  rw [View.set_slice_whole, Rect.mem_set_unit]
  exact Iff.rfl

/-- The pooling call's result array after the call. -/
theorem final0 (c : Dev nD) : (dat0 V c).arrAt 1 cfg0.N = sums V c := by
  refine (dat0 V c).arrAt_eq_of_cover 1 (sums V c) (flushed0_eq V c) fun i => ?_
  have hi0 : (i 0).val < 8 := (i 0).isLt
  have hi1 : (i 1).val < 512 := (i 1).isLt
  have hi2 : (i 2).val < 1 := (i 2).isLt
  have hN : cfg0.N = 16 := N_0
  refine ⟨⟨2 * (i 0).val + 1, by omega⟩, (flush0_1 _).mpr (by show (2 * (i 0).val + 1) % 2 = 1; omega), ?_⟩
  rw [mem_blk0]
  obtain ⟨-, -, -, q0, q1, q2⟩ := idx0 ⟨2 * (i 0).val + 1, by omega⟩
  intro a
  match a with
  | ⟨0, _⟩ =>
    show win0_1.index _ (0 : Fin 3) * 1 ≤ (i 0).val ∧ (i 0).val < win0_1.index _ (0 : Fin 3) * 1 + 1
    rw [q0]; show (2 * (i 0).val + 1) / 2 * 1 ≤ (i 0).val ∧ (i 0).val < (2 * (i 0).val + 1) / 2 * 1 + 1; omega
  | ⟨1, _⟩ =>
    show win0_1.index _ (1 : Fin 3) * 512 ≤ (i 1).val ∧ (i 1).val < win0_1.index _ (1 : Fin 3) * 512 + 512
    rw [q1]; omega
  | ⟨2, _⟩ =>
    show win0_1.index _ (2 : Fin 3) * 1 ≤ (i 2).val ∧ (i 2).val < win0_1.index _ (2 : Fin 3) * 1 + 1
    rw [q2]; omega

end Cert.ReferenceIdeal.RValue
end
-- ==== Proof.RefScale.lean ====
import proofs.«146628_g2000006015755092_pallasbulk_264_5_alg».proof.Proof.Spec
import proofs.«146628_g2000006015755092_pallasbulk_264_5_alg».proof.Proof.Gen.ReferenceIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«146628_g2000006015755092_pallasbulk_264_5_alg».proof.Proof.RefBodies

noncomputable section

open Idealize.ShloMosaic Idealize.ShloMosaic.TcCoe Idealize.SL.Sem Idealize.ShloMosaic.ValueIdx
open Idealize.ShloMosaic.Pipeline (Dat)

/-!
  The scaling call's result array: every entry of the [8, 512, 4096] array it reads, times the gate of the entry's batch
  entry and channel (the [8, 512, 1] column array it reads).

  The grid is again 8 × 2: point t reads tile (t / 2, 0, t % 2) of the input and the gate column of batch entry t / 2, and
  writes tile (t / 2, 0, t % 2) of the result, at every point.
-/

namespace Cert.ReferenceIdeal.RValue
open Cert.ReferenceIdeal Cert.ReferenceIdeal.Gen

variable (V : (c : Dev nD) → (b : Ref sig .tc) → Buf (Elt Ideal) ((c : Thread nD τ).loc b))

/-- An array scaled row by row: entry (n, c, s) of `X` times entry (n, c, 0) of the column array `G`. -/
def scaledOf (X : S8x512x4096.Idx → EReal) (G : S8x512x1.Idx → EReal) : S8x512x4096.Idx → EReal :=
  fun i => X i * G (ix3 (⟨(i 0).val, (i 0).isLt⟩ : Fin 8) (⟨(i 1).val, (i 1).isLt⟩ : Fin 512) (0 : Fin 1))

/-- The scaling call's result array, from the two arrays it reads as the call finds them. -/
def scaled (c : Dev nD) : S8x512x4096.Idx → EReal := scaledOf (V c main_v0) (V c main_v21)

/-- The printed index maps over the grid. -/
theorem idx1 : ∀ t : Fin cfg1.N, win1_0.index t (0 : Fin 3) = t.val / 2 ∧ win1_0.index t (1 : Fin 3) = 0
    ∧ win1_0.index t (2 : Fin 3) = t.val % 2 ∧ win1_1.index t (0 : Fin 3) = t.val / 2 ∧ win1_1.index t (1 : Fin 3) = 0
    ∧ win1_1.index t (2 : Fin 3) = 0 ∧ win1_2.index t (0 : Fin 3) = t.val / 2 ∧ win1_2.index t (1 : Fin 3) = 0
    ∧ win1_2.index t (2 : Fin 3) = t.val % 2 :=
  (by decide +kernel : ∀ t : Fin grid1.N, _)

/-- What point t writes back is its tile of `scaled`. -/
theorem flushed1_eq (c : Dev nD) (t : Fin cfg1.N) :
    (dat1 V c).flushed 2 t = ((cfg1.win 2).blk t).view.read (Elt Ideal) (scaled V c) := by
  show (cfg1.win 2).cut (grid1.coords t) ((dat1 V c).after 2 t) = _
  rw [after1_2, out1]
  obtain ⟨p0, p1, p2, q0, q1, q2, s0, s1, s2⟩ := idx1 t
  have key : ∀ y : S1x512x2048.Idx, k1_pay1 (iblk1 V c 1 t) (iblk1 V c 0 t) y
      = scaled V c (((cfg1.win 2).blk t).view.emb y) := by
    intro y
    obtain ⟨u, c', l, rfl⟩ : ∃ (u : Fin 1) (c' : Fin 512) (l : Fin 2048), y = ix3 u c' l := ⟨y 0, y 1, y 2, eq_ix3 y⟩
    rw [pay_scale_apply]
    unfold scaled scaledOf
    refine congrArg₂ (· * ·) ?_ ?_
    · show V c main_v0 (((cfg1.win 0).blk t).view.emb (ix3 u c' l)) = V c main_v0 (((cfg1.win 2).blk t).view.emb (ix3 u c' l))
      refine congrArg (V c main_v0) (funext fun a => Fin.ext ?_)
      match a with
      | ⟨0, _⟩ =>
        show win1_0.index t (0 : Fin 3) * 1 + 1 * u.val = win1_2.index t (0 : Fin 3) * 1 + 1 * u.val
        rw [p0, s0]
      | ⟨1, _⟩ =>
        show win1_0.index t (1 : Fin 3) * 512 + 1 * c'.val = win1_2.index t (1 : Fin 3) * 512 + 1 * c'.val
        rw [p1, s1]
      | ⟨2, _⟩ =>
        show win1_0.index t (2 : Fin 3) * 2048 + 1 * l.val = win1_2.index t (2 : Fin 3) * 2048 + 1 * l.val
        rw [p2, s2]
    · show V c main_v21 (((cfg1.win 1).blk t).view.emb (ix3 u c' (0 : Fin 1))) = V c main_v21 _
      refine congrArg (V c main_v21) (funext fun a => Fin.ext ?_)
      match a with
      | ⟨0, _⟩ =>
        show win1_1.index t (0 : Fin 3) * 1 + 1 * u.val = win1_2.index t (0 : Fin 3) * 1 + 1 * u.val
        rw [q0, s0]
      | ⟨1, _⟩ =>
        show win1_1.index t (1 : Fin 3) * 512 + 1 * c'.val = win1_2.index t (1 : Fin 3) * 512 + 1 * c'.val
        rw [q1, s1]
      | ⟨2, _⟩ =>
        show win1_1.index t (2 : Fin 3) * 1 + 1 * 0 = 0
        rw [q2]
  funext j
  exact key j

/-- An index of the result array lies in point t's tile iff each coordinate lies in the tile's range. -/
theorem mem_blk1 (t : Fin cfg1.N) (i : S8x512x4096.Idx) :
    i ∈ ((cfg1.win 2).blk t).view.set ↔ ∀ a : Fin 3, win1_2.index t a * S1x512x2048.size a ≤ (i a).val
      ∧ (i a).val < win1_2.index t a * S1x512x2048.size a + S1x512x2048.size a := by
  show i ∈ ((View.whole main_v22).slice (win1_2.rect t)).set ↔ _
  rw [View.set_slice_whole, Rect.mem_set_unit]
  exact Iff.rfl

/-- The scaling call's result array after the call. -/
theorem final1 (c : Dev nD) : (dat1 V c).arrAt 2 cfg1.N = scaled V c := by
  refine (dat1 V c).arrAt_eq_of_cover 2 (scaled V c) (fun t _ => flushed1_eq V c t) fun i => ?_
  have hi0 : (i 0).val < 8 := (i 0).isLt
  have hi1 : (i 1).val < 512 := (i 1).isLt
  have hi2 : (i 2).val < 4096 := (i 2).isLt
  have hN : cfg1.N = 16 := N_1
  refine ⟨⟨2 * (i 0).val + (i 2).val / 2048, by omega⟩, flush1_2 _, ?_⟩
  rw [mem_blk1]
  obtain ⟨-, -, -, -, -, -, s0, s1, s2⟩ := idx1 ⟨2 * (i 0).val + (i 2).val / 2048, by omega⟩
  intro a
  match a with
  | ⟨0, _⟩ =>
    show win1_2.index _ (0 : Fin 3) * 1 ≤ (i 0).val ∧ (i 0).val < win1_2.index _ (0 : Fin 3) * 1 + 1
    rw [s0]; show (2 * (i 0).val + (i 2).val / 2048) / 2 * 1 ≤ (i 0).val ∧ (i 0).val < (2 * (i 0).val + (i 2).val / 2048) / 2 * 1 + 1; omega
  | ⟨1, _⟩ =>
    show win1_2.index _ (1 : Fin 3) * 512 ≤ (i 1).val ∧ (i 1).val < win1_2.index _ (1 : Fin 3) * 512 + 512
    rw [s1]; omega
  | ⟨2, _⟩ =>
    show win1_2.index _ (2 : Fin 3) * 2048 ≤ (i 2).val ∧ (i 2).val < win1_2.index _ (2 : Fin 3) * 2048 + 2048
    rw [s2]; show (2 * (i 0).val + (i 2).val / 2048) % 2 * 2048 ≤ (i 2).val ∧ (i 2).val < (2 * (i 0).val + (i 2).val / 2048) % 2 * 2048 + 2048; omega

end Cert.ReferenceIdeal.RValue
end
-- ==== Proof.RefGate.lean ====
import proofs.«146628_g2000006015755092_pallasbulk_264_5_alg».proof.Proof.Spec
import proofs.«146628_g2000006015755092_pallasbulk_264_5_alg».proof.Proof.Gen.ReferenceIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«146628_g2000006015755092_pallasbulk_264_5_alg».proof.Proof.RefBodies

noncomputable section

open Idealize.ShloMosaic Idealize.ShloMosaic.TcCoe Idealize.SL.Sem Idealize.ShloMosaic.ValueIdx
open Idealize.ShloMosaic.Pipeline (Dat)

/-!
  The host lines between the two calls, as one function, read at an index.

  From the [8, 512, 1] array of pooled sums `s` and the four weight arrays the lines compute, for batch entry n and
  channel c, 1 / (1 + exp (-(sum over j of max (sum over c' of (s n c' / 4096) * w1 c' j + b1 j) 0 * w2 j c + b2 c))),
  with the literals 4096, 0 and 1 left as their words.
-/

namespace Cert.ReferenceIdeal.RValue
open Cert.ReferenceIdeal Cert.ReferenceIdeal.Gen

/-- The host lines between the calls, composed. -/
def hostGate (s : FVec Ideal S8x512x1 .f32) (w1 : FVec Ideal S512x32 .f32) (b1 : FVec Ideal S32 .f32)
    (w2 : FVec Ideal S32x512 .f32) (b2 : FVec Ideal S512 .f32) : FVec Ideal S8x512x1 .f32 :=
  broadcastInDim S8x512x1 ![0, 1] bcast_S8x512_S8x512x1_0_1
    (Host.divf (F := Ideal) (broadcastInDim S8x512 ![] bcast_S_S8x512 (constant (F := Ideal) S_ .f32 0x3F800000#32))
      (addf (F := Ideal) (broadcastInDim S8x512 ![] bcast_S_S8x512 (constant (F := Ideal) S_ .f32 0x3F800000#32))
        (Host.exp (F := Ideal) (Host.negf (F := Ideal)
          (addf (F := Ideal)
            (Host.dotGeneral (F := Ideal) dot_S8x32_S32x512_S8x512_1_0_0_1_n_n none
              (maximumf (F := Ideal)
                (addf (F := Ideal)
                  (Host.dotGeneral (F := Ideal) dot_S8x512_S512x32_S8x32_1_0_0_1_n_n none
                    (Host.divf (F := Ideal) (shapeCast S8x512 s shapeCasts_S8x512x1_S8x512)
                      (broadcastInDim S8x512 ![] bcast_S_S8x512 (constant (F := Ideal) S_ .f32 0x45800000#32)))
                    w1)
                  (broadcastInDim S8x32 ![0, 1] bcast_S1x32_S8x32_0_1 (broadcastInDim S1x32 ![1] bcast_S32_S1x32_1 b1)))
                (broadcastInDim S8x32 ![] bcast_S_S8x32 (constant (F := Ideal) S_ .f32 0x00000000#32)))
              w2)
            (broadcastInDim S8x512 ![0, 1] bcast_S1x512_S8x512_0_1 (broadcastInDim S1x512 ![1] bcast_S512_S1x512_1 b2)))))))

/-! ## Its operations at an index -/

/-- A scalar broadcast to [8, 512] reads the scalar everywhere. -/
theorem splat512_apply (w : BitVec 32) (n : Fin 8) (c : Fin 512) :
    broadcastInDim S8x512 ![] bcast_S_S8x512 (constant (F := Ideal) S_ .f32 w) (ix2 n c) = Ideal.ofBits .f32 w :=
  broadcastInDim_apply _ _ _ _ ix0 fun a => a.elim0

/-- A scalar broadcast to [8, 32] reads the scalar everywhere. -/
theorem splat32_apply (w : BitVec 32) (n : Fin 8) (j : Fin 32) :
    broadcastInDim S8x32 ![] bcast_S_S8x32 (constant (F := Ideal) S_ .f32 w) (ix2 n j) = Ideal.ofBits .f32 w :=
  broadcastInDim_apply _ _ _ _ ix0 fun a => a.elim0

/-- A [32] vector broadcast over 8 rows reads, at (n, j), its entry j. -/
theorem rows32_apply (b : FVec Ideal S32 .f32) (n : Fin 8) (j : Fin 32) :
    broadcastInDim S8x32 ![0, 1] bcast_S1x32_S8x32_0_1 (broadcastInDim S1x32 ![1] bcast_S32_S1x32_1 b) (ix2 n j) = b (ix1 j) := by
  refine (broadcastInDim_apply _ _ _ (ix2 n j) (ix2 (0 : Fin 1) j) fun a => ?_).trans
    (broadcastInDim_apply _ _ b (ix2 (0 : Fin 1) j) (ix1 j) fun a => ?_)
  · match a with
    | ⟨0, _⟩ => show (0 : Nat) = if (1 : Nat) = 1 then 0 else n.val; rw [if_pos rfl]
    | ⟨1, _⟩ => show j.val = if (32 : Nat) = 1 then 0 else j.val; rw [if_neg (by decide)]
  · match a with
    | ⟨0, _⟩ => show j.val = if (32 : Nat) = 1 then 0 else j.val; rw [if_neg (by decide)]

/-- A [512] vector broadcast over 8 rows reads, at (n, c), its entry c. -/
theorem rows512_apply (b : FVec Ideal S512 .f32) (n : Fin 8) (c : Fin 512) :
    broadcastInDim S8x512 ![0, 1] bcast_S1x512_S8x512_0_1 (broadcastInDim S1x512 ![1] bcast_S512_S1x512_1 b) (ix2 n c) = b (ix1 c) := by
  refine (broadcastInDim_apply _ _ _ (ix2 n c) (ix2 (0 : Fin 1) c) fun a => ?_).trans
    (broadcastInDim_apply _ _ b (ix2 (0 : Fin 1) c) (ix1 c) fun a => ?_)
  · match a with
    | ⟨0, _⟩ => show (0 : Nat) = if (1 : Nat) = 1 then 0 else n.val; rw [if_pos rfl]
    | ⟨1, _⟩ => show c.val = if (512 : Nat) = 1 then 0 else c.val; rw [if_neg (by decide)]
  · match a with
    | ⟨0, _⟩ => show c.val = if (512 : Nat) = 1 then 0 else c.val; rw [if_neg (by decide)]

/-- The [8, 512] array seen as [8, 512, 1] reads, at (n, c, z), entry (n, c). -/
theorem gateColumn_apply (g : FVec Ideal S8x512 .f32) (n : Fin 8) (c : Fin 512) (z : Fin 1) :
    broadcastInDim S8x512x1 ![0, 1] bcast_S8x512_S8x512x1_0_1 g (ix3 n c z) = g (ix2 n c) := by
  refine broadcastInDim_apply _ _ g (ix3 n c z) (ix2 n c) fun a => ?_
  match a with
  | ⟨0, _⟩ => show n.val = if (8 : Nat) = 1 then 0 else n.val; rw [if_neg (by decide)]
  | ⟨1, _⟩ => show c.val = if (512 : Nat) = 1 then 0 else c.val; rw [if_neg (by decide)]

/-- The [8, 512, 1] array of sums seen as [8, 512] reads, at (n, c), entry (n, c, 0). -/
theorem sumsRow_apply (s : FVec Ideal S8x512x1 .f32) (n : Fin 8) (c : Fin 512) :
    shapeCast S8x512 s shapeCasts_S8x512x1_S8x512 (ix2 n c) = s (ix3 n c (0 : Fin 1)) :=
  shapeCast_apply s _ _ _ (by
    rw [Shape.rowMajor_val_three, Shape.rowMajor_val_two]
    show (n.val * 512 + c.val) * 1 + 0 = n.val * 512 + c.val
    omega)

/-- The first host product, [8, 512] by [512, 32], as a sum over the 512 channels. -/
theorem dot1_apply (l : FVec Ideal S8x512 .f32) (r : FVec Ideal S512x32 .f32) (n : Fin 8) (j : Fin 32) :
    Host.dotGeneral (F := Ideal) dot_S8x512_S512x32_S8x32_1_0_0_1_n_n none l r (ix2 n j) = ∑ q : Fin 512, l (ix2 n q) * r (ix2 q j) := by
  refine (Ideal.dotGeneral_apply dot_S8x512_S512x32_S8x32_1_0_0_1_n_n none _ l r (ix2 n j)).trans ?_
  rw [← Equiv.sum_comp (contrEquiv1 dot_S8x512_S512x32_S8x32_1_0_0_1_n_n 512 rfl rfl).symm]
  refine Finset.sum_congr rfl fun q _ => congrArg₂ (· * ·) (congrArg l (funext fun a => Fin.ext ?_)) (congrArg r (funext fun a => Fin.ext ?_))
  · match a with
    | ⟨0, _⟩ => rfl
    | ⟨1, _⟩ => exact (DotDims.lhsIdx_val_of_single _ rfl _ _).trans (contrEquiv1_symm_val _ 512 rfl rfl q)
  · match a with
    | ⟨0, _⟩ => exact (DotDims.rhsIdx_val_of_single _ rfl _ _).trans (contrEquiv1_symm_val _ 512 rfl rfl q)
    | ⟨1, _⟩ => rfl

/-- The second host product, [8, 32] by [32, 512], as a sum over the 32 hidden units. -/
theorem dot2_apply (l : FVec Ideal S8x32 .f32) (r : FVec Ideal S32x512 .f32) (n : Fin 8) (c : Fin 512) :
    Host.dotGeneral (F := Ideal) dot_S8x32_S32x512_S8x512_1_0_0_1_n_n none l r (ix2 n c) = ∑ q : Fin 32, l (ix2 n q) * r (ix2 q c) := by
  refine (Ideal.dotGeneral_apply dot_S8x32_S32x512_S8x512_1_0_0_1_n_n none _ l r (ix2 n c)).trans ?_
  rw [← Equiv.sum_comp (contrEquiv1 dot_S8x32_S32x512_S8x512_1_0_0_1_n_n 32 rfl rfl).symm]
  refine Finset.sum_congr rfl fun q _ => congrArg₂ (· * ·) (congrArg l (funext fun a => Fin.ext ?_)) (congrArg r (funext fun a => Fin.ext ?_))
  · match a with
    | ⟨0, _⟩ => rfl
    | ⟨1, _⟩ => exact (DotDims.lhsIdx_val_of_single _ rfl _ _).trans (contrEquiv1_symm_val _ 32 rfl rfl q)
  · match a with
    | ⟨0, _⟩ => exact (DotDims.rhsIdx_val_of_single _ rfl _ _).trans (contrEquiv1_symm_val _ 32 rfl rfl q)
    | ⟨1, _⟩ => rfl

/-- The composed host lines at (n, c, z). -/
theorem hostGate_apply (s : FVec Ideal S8x512x1 .f32) (w1 : FVec Ideal S512x32 .f32) (b1 : FVec Ideal S32 .f32)
    (w2 : FVec Ideal S32x512 .f32) (b2 : FVec Ideal S512 .f32) (n : Fin 8) (c : Fin 512) (z : Fin 1) :
    hostGate s w1 b1 w2 b2 (ix3 n c z)
      = Ideal.div (Ideal.ofBits .f32 0x3F800000#32) (Ideal.ofBits .f32 0x3F800000#32 + Ideal.exp (-(
          (∑ j : Fin 32, max ((∑ q : Fin 512, Ideal.div (s (ix3 n q (0 : Fin 1))) (Ideal.ofBits .f32 0x45800000#32) * w1 (ix2 q j)) + b1 (ix1 j))
              (Ideal.ofBits .f32 0x00000000#32) * w2 (ix2 j c))
            + b2 (ix1 c)))) := by
  unfold hostGate
  rw [gateColumn_apply]
  show Ideal.div (broadcastInDim S8x512 ![] bcast_S_S8x512 (constant (F := Ideal) S_ .f32 0x3F800000#32) (ix2 n c))
      (broadcastInDim S8x512 ![] bcast_S_S8x512 (constant (F := Ideal) S_ .f32 0x3F800000#32) (ix2 n c)
        + Ideal.exp (-(Host.dotGeneral (F := Ideal) dot_S8x32_S32x512_S8x512_1_0_0_1_n_n none _ w2 (ix2 n c)
            + broadcastInDim S8x512 ![0, 1] bcast_S1x512_S8x512_0_1 (broadcastInDim S1x512 ![1] bcast_S512_S1x512_1 b2) (ix2 n c)))) = _
  rw [splat512_apply, rows512_apply, dot2_apply]
  refine congrArg (fun t => Ideal.div (Ideal.ofBits .f32 0x3F800000#32) (Ideal.ofBits .f32 0x3F800000#32 + Ideal.exp (-(t + b2 (ix1 c))))) ?_
  refine Finset.sum_congr rfl fun j _ => congrArg (· * w2 (ix2 j c)) ?_
  show max (Host.dotGeneral (F := Ideal) dot_S8x512_S512x32_S8x32_1_0_0_1_n_n none _ w1 (ix2 n j)
        + broadcastInDim S8x32 ![0, 1] bcast_S1x32_S8x32_0_1 (broadcastInDim S1x32 ![1] bcast_S32_S1x32_1 b1) (ix2 n j))
      (broadcastInDim S8x32 ![] bcast_S_S8x32 (constant (F := Ideal) S_ .f32 0x00000000#32) (ix2 n j)) = _
  rw [splat32_apply, rows32_apply, dot1_apply]
  refine congrArg (fun t => max (t + b1 (ix1 j)) (Ideal.ofBits .f32 0x00000000#32)) ?_
  refine Finset.sum_congr rfl fun q _ => congrArg (· * w1 (ix2 q j)) ?_
  show Ideal.div (shapeCast S8x512 s shapeCasts_S8x512x1_S8x512 (ix2 n q))
      (broadcastInDim S8x512 ![] bcast_S_S8x512 (constant (F := Ideal) S_ .f32 0x45800000#32) (ix2 n q)) = _
  rw [splat512_apply, sumsRow_apply]

end Cert.ReferenceIdeal.RValue
end
-- ==== Proof.RefHost.lean ====
import proofs.«146628_g2000006015755092_pallasbulk_264_5_alg».proof.Proof.Spec
import proofs.«146628_g2000006015755092_pallasbulk_264_5_alg».proof.Proof.Gen.ReferenceIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«146628_g2000006015755092_pallasbulk_264_5_alg».proof.Proof.RefSums
import proofs.«146628_g2000006015755092_pallasbulk_264_5_alg».proof.Proof.RefScale
import proofs.«146628_g2000006015755092_pallasbulk_264_5_alg».proof.Proof.RefGate

noncomputable section

open Idealize.ShloMosaic Idealize.ShloMosaic.TcCoe Idealize.SL.Sem Idealize.ShloMosaic.ValueIdx
open Idealize.ShloMosaic.Pipeline (Dat)

/-!
  The contents of the buffers at the boundaries between the reference's segments, read back to the launch memory.

  The first reshape gives the pooling call the [8, 512, 4096] view of x; the pooling call leaves the two-tile sums; the host
  lines turn them and the four weight arrays into the gate column; the scaling call multiplies; the last reshape restores
  the rank-5 shape.
-/

namespace Cert.ReferenceIdeal.RValue
open Cert.ReferenceIdeal Cert.ReferenceIdeal.Gen

variable (m : (ℓ : Loc nD τ sig) → Buf (Elt Ideal) ℓ) (ρ : Dev nD → PrngReg)

/-- The pooling call reads the [8, 512, 4096] view of x. -/
theorem V1_v0 (c : Dev nD) : V1 m ρ c main_v0
    = shapeCast S8x512x4096 (m ((c : Thread nD τ).loc main_arg0)) shapeCasts_S8x512x16x16x16_S8x512x4096 := by
  show StableHlo.after hostOps0 (W0 m ρ c) (Proc.devRef .tc main_v0) = _
  after_results
  rfl

/-- After the pooling call its result array holds the two-tile sums. -/
theorem W2_v1 (c : Dev nD) : W2 m ρ c (Proc.devRef .tc main_v1) = sums (V1 m ρ) c :=
  (W2_arr m ρ c 1).trans (final0 (V1 m ρ) c)

/-- The pooling call leaves the array it reads as it found it. -/
theorem W2_v0 (c : Dev nD) : W2 m ρ c (Proc.devRef .tc main_v0) = V1 m ρ c main_v0 :=
  (W2_arr m ρ c 0).trans (((dat0 (V1 m ρ) c).arrAt_in 0 rfl _).trans (A_eq0 (V1 m ρ) c 0))

theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results)
theorem W2_arg3 (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results)
theorem W2_arg4 (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results)

/-- The gate column the scaling call reads: the host lines of the pooled sums and the weight arrays. -/
theorem V3_v21 (c : Dev nD) : V3 m ρ c main_v21
    = hostGate (sums (V1 m ρ) c) (m ((c : Thread nD τ).loc main_arg1)) (m ((c : Thread nD τ).loc main_arg2))
        (m ((c : Thread nD τ).loc main_arg3)) (m ((c : Thread nD τ).loc main_arg4)) := by
  have e : StableHlo.after hostOps1 (W2 m ρ c) (Proc.devRef .tc main_v21)
      = hostGate (W2 m ρ c (Proc.devRef .tc main_v1)) (W2 m ρ c (Proc.devRef .tc main_arg1)) (W2 m ρ c (Proc.devRef .tc main_arg2))
          (W2 m ρ c (Proc.devRef .tc main_arg3)) (W2 m ρ c (Proc.devRef .tc main_arg4)) := by
    after_results
    rfl
  rw [W2_v1, W2_arg1, W2_arg2, W2_arg3, W2_arg4] at e
  exact e

/-- The scaling call reads the same [8, 512, 4096] view of x: no host line between the calls writes it. -/
theorem V3_v0 (c : Dev nD) : V3 m ρ c main_v0 = V1 m ρ c main_v0 := by
  show StableHlo.after hostOps1 (W2 m ρ c) (Proc.devRef .tc main_v0) = _
  after_results
  exact W2_v0 m ρ c

/-- The result buffer at the last boundary: the scaled array in the rank-5 shape. -/
theorem W5_v23 (c : Dev nD) : W5 m ρ c (Proc.devRef .tc main_v23)
    = shapeCast S8x512x16x16x16 (scaled (V3 m ρ) c) shapeCasts_S8x512x4096_S8x512x16x16x16 := by
  show StableHlo.after hostOps2 (W4 m ρ c) (Proc.devRef .tc main_v23) = _
  after_results
  exact congrArg (fun X => shapeCast S8x512x16x16x16 X shapeCasts_S8x512x4096_S8x512x16x16x16)
    ((W4_arr m ρ c 2).trans (final1 (V3 m ρ) c))

end Cert.ReferenceIdeal.RValue
end
-- ==== Proof.RefRun.lean ====
import proofs.«146628_g2000006015755092_pallasbulk_264_5_alg».proof.Proof.Gen.ReferenceIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
  The reference's run with its result named.

  @main is five segments: a reshape, the pooling call, the host lines that make the gate, the scaling call, a reshape.  The
  launch over these segments ends with every unscoped buffer at the last boundary's contents (the fold of the segments from
  the launch memory); read at the result buffer and at the five argument buffers this is the post below.
-/

set_option maxRecDepth 16384

noncomputable section

namespace Cert.ReferenceIdeal.RValue

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the reference terminates, nothing faulting, with the result buffer at the last
    boundary's contents and the argument arrays as launched. -/
theorem run_last : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.ReferenceIdeal.RValue

end
-- ==== Proof.Consts.lean ====
/-
  The float literals the two programs spell, as the extended reals their words denote: 1.0, 4096.0 and 2^-12, and the one
  law that joins the two sides: a quotient by 4096 is the product with 2^-12, on every extended real.
-/
import Idealize.ShloMosaic.PureOps.Ideal

noncomputable section

namespace Cert.Consts

open Idealize.ShloMosaic

/-- The word of 1.0 denotes 1. -/
theorem ofBits_one : Ideal.ofBits .f32 0x3F800000#32 = 1 := by
  simp [Ideal.ofBits, Ideal.ieee, -EReal.coe_mul]; norm_num

/-- The word of 4096.0 denotes the real 4096. -/
theorem ofBits_4096 : Ideal.ofBits .f32 0x45800000#32 = ((4096 : ℝ) : EReal) := by
  simp [Ideal.ofBits, Ideal.ieee, -EReal.coe_mul]; norm_num

/-- The word of 2.44140625e-4 denotes the real 1/4096. -/
theorem ofBits_inv4096 : Ideal.ofBits .f32 0x39800000#32 = ((1 / 4096 : ℝ) : EReal) := by
  simp [Ideal.ofBits, Ideal.ieee, -EReal.coe_mul]; norm_num

/-- A quotient by the word of 4096.0 is the product with the word of 2^-12, at the infinities too. -/
theorem scale_eq (t : EReal) : Ideal.div t (Ideal.ofBits .f32 0x45800000#32) = t * Ideal.ofBits .f32 0x39800000#32 := by
  rw [ofBits_4096, ofBits_inv4096]
  exact Ideal.div_coe (by norm_num : (4096 : ℝ) ≠ 0) t

end Cert.Consts

end
-- ==== Proof.RefValue.lean ====
import proofs.«146628_g2000006015755092_pallasbulk_264_5_alg».proof.Proof.Spec
import proofs.«146628_g2000006015755092_pallasbulk_264_5_alg».proof.Proof.Gen.ReferenceIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic
import proofs.«146628_g2000006015755092_pallasbulk_264_5_alg».proof.Proof.RefHost
import proofs.«146628_g2000006015755092_pallasbulk_264_5_alg».proof.Proof.RefRun
import proofs.«146628_g2000006015755092_pallasbulk_264_5_alg».proof.Proof.Consts

noncomputable section

open Idealize.ShloMosaic Idealize.ShloMosaic.TcCoe Idealize.SL.Sem Idealize.ShloMosaic.ValueIdx
open Idealize.ShloMosaic.Pipeline (Dat)

/-!
  The reference computes the specification.

  Index by index: the last reshape reads the scaled array at (n, c, position of (d, h, w)); the scaled array is the flat
  view of x there, which is x at (n, c, d, h, w), times the gate column at (n, c); the gate column is the host lines of the
  two-tile sums; a two-tile sum from zero is the sum over all 4096 positions; and the host's quotient by 4096 is the
  product with 2^-12, its 1 / (1 + exp (-t)) the logistic function.
-/

namespace Cert.ReferenceIdeal.RValue
open Cert.ReferenceIdeal Cert.ReferenceIdeal.Gen

/-- The [8, 512, 4096] view of x reads, at (n, c, s), x at spatial position s of channel c of batch entry n. -/
theorem flat_apply (x : FVec Ideal S8x512x16x16x16 .f32) (n : Fin 8) (c : Fin 512) (s : Fin 4096) :
    shapeCast S8x512x4096 x shapeCasts_S8x512x16x16x16_S8x512x4096 (ix3 n c s) = x (Cert.Spec.cell n c s) :=
  shapeCast_apply x _ _ _ (by
    have := s.isLt
    rw [Shape.rowMajor_val_five, Shape.rowMajor_val_three]
    show (((n.val * 512 + c.val) * 16 + s.val / 256) * 16 + s.val / 16 % 16) * 16 + s.val % 16 = (n.val * 512 + c.val) * 4096 + s.val
    omega)

/-- The rank-5 view of a [8, 512, 4096] array reads, at (n, c, d, h, w), the array at (n, c, position of (d, h, w)). -/
theorem unflat_apply (g : FVec Ideal S8x512x4096 .f32) (n : Fin 8) (c : Fin 512) (d h w : Fin 16) :
    shapeCast S8x512x16x16x16 g shapeCasts_S8x512x4096_S8x512x16x16x16 (ix5 n c d h w) = g (ix3 n c (Cert.Spec.pos d h w)) :=
  shapeCast_apply g _ _ _ (by
    rw [Shape.rowMajor_val_three, Shape.rowMajor_val_five]
    show (n.val * 512 + c.val) * 4096 + ((d.val * 16 + h.val) * 16 + w.val)
      = (((n.val * 512 + c.val) * 16 + d.val) * 16 + h.val) * 16 + w.val
    omega)

/-- The two-tile sum of a row of the flat view, from zero, is the sum over all 4096 spatial positions. -/
theorem rowSum_flat (x : FVec Ideal S8x512x16x16x16 .f32) (n : Fin 8) (c : Fin 512) :
    rowSum (shapeCast S8x512x4096 x shapeCasts_S8x512x16x16x16_S8x512x4096) n c = Cert.Spec.pooled x n c := by
  unfold rowSum Cert.Spec.pooled
  simp only [flat_apply]
  rw [zero_add]
  exact (Fin.sum_univ_add (a := 2048) (b := 2048) (fun s => x (Cert.Spec.cell n c s))).symm

variable (m : (ℓ : Loc nD τ sig) → Buf (Elt Ideal) ℓ) (ρ : Dev nD → PrngReg)

/-- The reference's result is the specification of the launch contents of its arguments. -/
theorem result_eq (c : Dev nD) : W5 m ρ c (Proc.devRef .tc main_v23)
    = Cert.Spec.out (Ideal.ofBits .f32 0x39800000#32) (m ((c : Thread nD τ).loc main_arg0)) (m ((c : Thread nD τ).loc main_arg1))
        (m ((c : Thread nD τ).loc main_arg2)) (m ((c : Thread nD τ).loc main_arg3)) (m ((c : Thread nD τ).loc main_arg4)) := by
  rw [W5_v23]
  funext i
  obtain ⟨n, c', d, h, w, rfl⟩ : ∃ (n : Fin 8) (c' : Fin 512) (d h w : Fin 16), i = ix5 n c' d h w :=
    ⟨i 0, i 1, i 2, i 3, i 4, eq_ix5 i⟩
  rw [unflat_apply]
  unfold scaled scaledOf
  rw [V3_v0, V1_v0, V3_v21, flat_apply, Cert.Spec.cell_pos]
  have hs : ∀ q : Fin 512, sums (V1 m ρ) c (ix3 n q (0 : Fin 1)) = Cert.Spec.pooled (m ((c : Thread nD τ).loc main_arg0)) n q := fun q => by
    unfold sums
    rw [V1_v0]
    exact rowSum_flat _ n q
  have key : hostGate (sums (V1 m ρ) c) (m ((c : Thread nD τ).loc main_arg1)) (m ((c : Thread nD τ).loc main_arg2))
        (m ((c : Thread nD τ).loc main_arg3)) (m ((c : Thread nD τ).loc main_arg4)) (ix3 n c' (0 : Fin 1))
      = Cert.Spec.gate (Ideal.ofBits .f32 0x39800000#32) (m ((c : Thread nD τ).loc main_arg0)) (m ((c : Thread nD τ).loc main_arg1))
        (m ((c : Thread nD τ).loc main_arg2)) (m ((c : Thread nD τ).loc main_arg3)) (m ((c : Thread nD τ).loc main_arg4)) n c' := by
    rw [hostGate_apply]
    simp only [hs, Cert.Consts.scale_eq, Cert.Consts.ofBits_one, Ideal.ofBits_zero_f32]
    rfl
  have step : ∀ (a t₁ t₂ : EReal), t₁ = t₂ → a * t₁ = a * t₂ := fun a _ _ e => by rw [e]
  exact step _ _ _ key

/-- The reference's run, read: its result is the specification of its arguments, which end unchanged. -/
theorem run : θ_run (defs (F := Ideal)) (onTc (τ := τ) (main (F := Ideal))) ⟨m, fun _ => 0, ρ⟩ fun r => ∀ c : Dev nD,
      r.2.mem ((c.tc : Thread nD τ).loc main_v23) = Cert.Spec.out (Ideal.ofBits .f32 0x39800000#32) (m ((c.tc : Thread nD τ).loc main_arg0))
          (m ((c.tc : Thread nD τ).loc main_arg1)) (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_eq m ρ c), (h c).2⟩) (run_last m ρ)

end Cert.ReferenceIdeal.RValue
end
-- ==== Proof.KernelBody.lean ====
/-
  The gated block, entry by entry.

  At one grid point the kernel holds a block x0 : [1, 4096, 512] (4096 spatial positions by 512 channels of one batch entry),
  the two weight matrices x1 : [512, 32], x3 : [32, 512] and the two bias rows x2 : [1, 32], x4 : [1, 512], and stores
      x0 (0, s, c) * logistic ((sum over j of max ((sum over c' of (colsum c' * r) * x1 (c', j)) + x2 (0, j)) 0 * x3 (j, c)) + x4 (0, c))
  at (u, s, c), where colsum c' is the sum of x0 (0, s', c') over the 4096 positions s' and r is the literal 2^-12.
  The three non-pointwise steps are read once each: the sum over the rows of the block (a sum over Fin 4096) and the two
  products of a row by a matrix (sums over Fin 512 and over Fin 32, the contraction index renamed to its one coordinate);
  everything else is pointwise, or a change of shape that moves no entry.
-/
import proofs.«146628_g2000006015755092_pallasbulk_264_5_alg».proof.Proof.Spec
import proofs.«146628_g2000006015755092_pallasbulk_264_5_alg».proof.Proof.Gen.KernelIdeal.Skeleton
import Idealize.ShloMosaic.Lib.ValueLayout
import Idealize.ShloMosaic.PureOps.Ideal.Laws

noncomputable section

namespace Cert.KernelIdeal.KValue

open Cert.KernelIdeal Cert.KernelIdeal.Gen Idealize.ShloMosaic Idealize.ShloMosaic.ValueIdx

/-- The sum over the 4096 rows of a block, at column c'. -/
theorem colsum_apply (x0 : Vec Ideal S1x4096x512 .f32) (hφ : FKind.Formats .f32)
    (hacc : (0x00000000#32 : BitVec 32) = FKind.add.neutral .f32 hφ) (c' : Fin 512) :
    multiReduction (F := Ideal) .add [0] S512 (shapeCast S4096x512 x0 shapeCasts_S1x4096x512_S4096x512) 0x00000000#32
        reduces_S4096x512_S512 hφ hacc (ix1 c')
      = ∑ s' : Fin 4096, x0 (ix3 (0 : Fin 1) s' c') := by
  refine (Ideal.multiReduction_add_single _ 0x00000000#32 reduces_S4096x512_S512 hφ hacc (ix1 c')).trans ?_
  refine Finset.sum_congr rfl fun s' _ => ?_
  have e : reduces_S4096x512_S512.lift (ix1 c') s' = ix2 (n0 := 4096) (n1 := 512) s' c' := by
    funext a
    match a with
    | ⟨0, _⟩ => rfl
    | ⟨1, _⟩ => rfl
  rw [e]
  exact shapeCast_1ab_ab_apply x0 _ s' c'

theorem mm1_apply (a : FVec Ideal S1x512 .f32) (b : FVec Ideal S512x32 .f32) (u : Fin 1) (j : Fin 32) :
    matmul dot_S1x512_S512x32_S1x32_1_0_0_1_n_n none a b (constant (F := Ideal) S1x32 .f32 0x00000000#32) (ix2 u j)
      = ∑ c' : Fin 512, a (ix2 (0 : Fin 1) c') * b (ix2 c' j) := by
  refine (Ideal.matmul_constant_zero_apply dot_S1x512_S512x32_S1x32_1_0_0_1_n_n none a b (ix2 u j)).trans ?_
  refine (Equiv.sum_comp (contrEquiv1 dot_S1x512_S512x32_S1x32_1_0_0_1_n_n 512 rfl rfl).symm _).symm.trans ?_
  refine Finset.sum_congr rfl fun c' _ => ?_
  have hu : u = 0 := Subsingleton.elim _ _
  subst hu
  have hl : dot_S1x512_S512x32_S1x32_1_0_0_1_n_n.lhsIdx (ix2 (0 : Fin 1) j)
      ((contrEquiv1 dot_S1x512_S512x32_S1x32_1_0_0_1_n_n 512 rfl rfl).symm c') = ix2 (0 : Fin 1) c' := by
    funext ax
    apply Fin.ext
    match ax with
    | ⟨0, _⟩ => rfl
    | ⟨1, _⟩ =>
      exact (DotDims.lhsIdx_val_of_single dot_S1x512_S512x32_S1x32_1_0_0_1_n_n (cl := (1 : Fin 2)) rfl _ _).trans
        (contrEquiv1_symm_val dot_S1x512_S512x32_S1x32_1_0_0_1_n_n 512 rfl rfl c')
  have hr : dot_S1x512_S512x32_S1x32_1_0_0_1_n_n.rhsIdx (ix2 (0 : Fin 1) j)
      ((contrEquiv1 dot_S1x512_S512x32_S1x32_1_0_0_1_n_n 512 rfl rfl).symm c') = ix2 c' j := by
    funext ax
    apply Fin.ext
    match ax with
    | ⟨0, _⟩ =>
      exact (DotDims.rhsIdx_val_of_single dot_S1x512_S512x32_S1x32_1_0_0_1_n_n (cr := (0 : Fin 2)) rfl _ _).trans
        (contrEquiv1_symm_val dot_S1x512_S512x32_S1x32_1_0_0_1_n_n 512 rfl rfl c')
    | ⟨1, _⟩ => rfl
  rw [hl, hr]

theorem mm2_apply (a : FVec Ideal S1x32 .f32) (b : FVec Ideal S32x512 .f32) (u : Fin 1) (c : Fin 512) :
    matmul dot_S1x32_S32x512_S1x512_1_0_0_1_n_n none a b (constant (F := Ideal) S1x512 .f32 0x00000000#32) (ix2 u c)
      = ∑ j : Fin 32, a (ix2 (0 : Fin 1) j) * b (ix2 j c) := by
  refine (Ideal.matmul_constant_zero_apply dot_S1x32_S32x512_S1x512_1_0_0_1_n_n none a b (ix2 u c)).trans ?_
  refine (Equiv.sum_comp (contrEquiv1 dot_S1x32_S32x512_S1x512_1_0_0_1_n_n 32 rfl rfl).symm _).symm.trans ?_
  refine Finset.sum_congr rfl fun j _ => ?_
  have hu : u = 0 := Subsingleton.elim _ _
  subst hu
  have hl : dot_S1x32_S32x512_S1x512_1_0_0_1_n_n.lhsIdx (ix2 (0 : Fin 1) c)
      ((contrEquiv1 dot_S1x32_S32x512_S1x512_1_0_0_1_n_n 32 rfl rfl).symm j) = ix2 (0 : Fin 1) j := by
    funext ax
    apply Fin.ext
    match ax with
    | ⟨0, _⟩ => rfl
    | ⟨1, _⟩ =>
      exact (DotDims.lhsIdx_val_of_single dot_S1x32_S32x512_S1x512_1_0_0_1_n_n (cl := (1 : Fin 2)) rfl _ _).trans
        (contrEquiv1_symm_val dot_S1x32_S32x512_S1x512_1_0_0_1_n_n 32 rfl rfl j)
  have hr : dot_S1x32_S32x512_S1x512_1_0_0_1_n_n.rhsIdx (ix2 (0 : Fin 1) c)
      ((contrEquiv1 dot_S1x32_S32x512_S1x512_1_0_0_1_n_n 32 rfl rfl).symm j) = ix2 j c := by
    funext ax
    apply Fin.ext
    match ax with
    | ⟨0, _⟩ =>
      exact (DotDims.rhsIdx_val_of_single dot_S1x32_S32x512_S1x512_1_0_0_1_n_n (cr := (0 : Fin 2)) rfl _ _).trans
        (contrEquiv1_symm_val dot_S1x32_S32x512_S1x512_1_0_0_1_n_n 32 rfl rfl j)
    | ⟨1, _⟩ => rfl
  rw [hl, hr]

theorem pay_apply (x0 : Vec Ideal S1x4096x512 .f32) (x1 : Vec Ideal S512x32 .f32) (x2 : Vec Ideal S1x32 .f32)
    (x3 : Vec Ideal S32x512 .f32) (x4 : Vec Ideal S1x512 .f32) (u : Fin 1) (s : Fin 4096) (c : Fin 512) :
    k0_pay1 x0 x1 x2 x3 x4 (ix3 u s c)
      = x0 (ix3 (0 : Fin 1) s c) * Ideal.logistic ((∑ j : Fin 32,
          max ((∑ c' : Fin 512, ((∑ s' : Fin 4096, x0 (ix3 (0 : Fin 1) s' c')) * Ideal.ofBits .f32 0x39800000#32) * x1 (ix2 c' j))
            + x2 (ix2 (0 : Fin 1) j)) 0 * x3 (ix2 j c)) + x4 (ix2 (0 : Fin 1) c)) := by
  unfold k0_pay1
  refine (shapeCast_ab_1ab_apply _ _ u s c).trans ?_
  refine (mulf_apply _ _ (ix2 s c)).trans ?_
  refine congrArg₂ (· * ·) (shapeCast_1ab_ab_apply x0 _ s c) ?_
  refine (broadcastTo_1b_ab_apply _ _ s c).trans ?_
  refine (show ∀ (v : FVec Ideal S1x512 .f32) i, logistic v i = Ideal.logistic (v i) from fun _ _ => rfl) _ _ |>.trans ?_
  refine congrArg Ideal.logistic ?_
  refine (addf_apply _ _ (ix2 (0 : Fin 1) c)).trans ?_
  refine congrArg₂ (· + ·) ?_ (congrFun (shapeCast_self x4 _) (ix2 (0 : Fin 1) c))
  refine (mm2_apply _ x3 0 c).trans ?_
  refine Finset.sum_congr rfl fun j _ => ?_
  refine congrArg (· * x3 (ix2 j c)) ?_
  refine (maximumf_apply _ _ (ix2 (0 : Fin 1) j)).trans ?_
  refine congrArg₂ max ?_ Ideal.ofBits_zero_f32
  refine (addf_apply _ _ (ix2 (0 : Fin 1) j)).trans ?_
  refine congrArg₂ (· + ·) ?_ (congrFun (shapeCast_self x2 _) (ix2 (0 : Fin 1) j))
  refine (mm1_apply _ x1 0 j).trans ?_
  refine Finset.sum_congr rfl fun c' _ => ?_
  refine congrArg (· * x1 (ix2 c' j)) ?_
  refine (mulf_apply _ _ (ix2 (0 : Fin 1) c')).trans ?_
  refine congrArg (· * Ideal.ofBits .f32 0x39800000#32) ?_
  refine (shapeCast_a_1a_apply _ _ 0 c').trans ?_
  exact colsum_apply x0 _ _ c'

end Cert.KernelIdeal.KValue

end
-- ==== Proof.KernelBlocks.lean ====
/-
  From the blocks to the array.

  The region runs over 8 grid points; point t loads row-block t of its input array X : [8, 4096, 512] (one batch entry:
  4096 positions by 512 channels), the whole of the two weight matrices and bias rows, and writes row-block t of the output
  array. What a point writes is therefore block t of ONE function of the arrays the region finds,
      gated i = X i * logistic ((sum over j of max ((sum over c' of (colsum (i 0) c' * r) * w1 (c', j)) + b1 (0, j)) 0 * w2 (j, i 2)) + b2 (0, i 2)),
  colsum n c' the sum of X (n, s', c') over the positions s', r the literal 2^-12 : an entry of block t depends on the
  entries of block t of X only. The 8 blocks tile the output array (row-block n is covered by point n), so after the
  region the output array is that function everywhere.
-/
import proofs.«146628_g2000006015755092_pallasbulk_264_5_alg».proof.Proof.Spec
import proofs.«146628_g2000006015755092_pallasbulk_264_5_alg».proof.Proof.Gen.KernelIdeal.Frame
import proofs.«146628_g2000006015755092_pallasbulk_264_5_alg».proof.Proof.KernelBody
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-- The gated value at batch entry n, position s, channel c. -/
def gatedAt (r : EReal) (X : S8x4096x512.Idx → EReal) (w1 : S512x32.Idx → EReal) (b1 : S1x32.Idx → EReal)
    (w2 : S32x512.Idx → EReal) (b2 : S1x512.Idx → EReal) (n : Fin 8) (s : Fin 4096) (c : Fin 512) : EReal :=
  X (ix3 n s c) * Ideal.logistic ((∑ j : Fin 32,
      max ((∑ c' : Fin 512, ((∑ s' : Fin 4096, X (ix3 n s' c')) * r) * w1 (ix2 c' j)) + b1 (ix2 (0 : Fin 1) j)) 0 * w2 (ix2 j c))
    + b2 (ix2 (0 : Fin 1) c))

/-- The region's result array as one function of the arrays the region finds. -/
def gated (r : EReal) (X : S8x4096x512.Idx → EReal) (w1 : S512x32.Idx → EReal) (b1 : S1x32.Idx → EReal)
    (w2 : S32x512.Idx → EReal) (b2 : S1x512.Idx → EReal) : S8x4096x512.Idx → EReal :=
  fun i => gatedAt r X w1 b1 w2 b2 (i 0) (i 1) (i 2)

theorem pay_eq_gated (X : S8x4096x512.Idx → EReal) (w1 : S512x32.Idx → EReal) (b1 : S1x32.Idx → EReal)
    (w2 : S32x512.Idx → EReal) (b2 : S1x512.Idx → EReal)
    (x0 : Vec Ideal S1x4096x512 .f32) (x1 : Vec Ideal S512x32 .f32) (x2 : Vec Ideal S1x32 .f32)
    (x3 : Vec Ideal S32x512 .f32) (x4 : Vec Ideal S1x512 .f32) (n : Fin 8)
    (h0 : ∀ (s : Fin 4096) (c : Fin 512), x0 (ix3 (0 : Fin 1) s c) = X (ix3 n s c))
    (h1 : x1 = w1) (h2 : x2 = b1) (h3 : x3 = w2) (h4 : x4 = b2)
    (y : S1x4096x512.Idx) (i : S8x4096x512.Idx)
    (hi0 : (i 0).val = n.val) (hi1 : (i 1).val = (y 1).val) (hi2 : (i 2).val = (y 2).val) :
    k0_pay1 x0 x1 x2 x3 x4 y = gated (Ideal.ofBits .f32 0x39800000#32) X w1 b1 w2 b2 i := by
  obtain ⟨u, s, c, rfl⟩ : ∃ (u : Fin 1) (s : Fin 4096) (c : Fin 512), y = ix3 u s c := ⟨y 0, y 1, y 2, eq_ix3 y⟩
  obtain rfl : i = ix3 n s c := by
    funext a
    match a with
    | ⟨0, _⟩ => exact Fin.ext hi0
    | ⟨1, _⟩ => exact Fin.ext hi1
    | ⟨2, _⟩ => exact Fin.ext hi2
  subst h1 h2 h3 h4
  rw [pay_apply]
  simp only [h0]
  rfl

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the input block and the output block are both row-block t of their arrays;
    the four small windows are their whole arrays. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- A grid point as a batch entry. -/
def pt (t : Fin cfg0.N) : Fin 8 := ⟨t.val, by have := t.isLt; have h : cfg0.N = 8 := N_0; omega⟩

theorem flushed_eq (c : Dev nD) (t : Fin cfg0.N) :
    (dats m 0 c).flushed 5 t = ((cfg0.win 5).blk t).view.read (Elt Ideal)
      (gated (Ideal.ofBits .f32 0x39800000#32) (V m c main_v1) (V m c main_arg1) (V m c main_v2) (V m c main_arg3) (V m c main_v3)) := by
  show (cfg0.win 5).cut (grid0.coords t) ((dats m 0 c).after 5 t) = _
  rw [after0_5]
  unfold out0_5
  rw [View.canon_unit_zero hz3]
  simp only [View.ld_unit_zero (S := S1x4096x512) hz3, View.ld_unit_zero (S := S512x32) hz2, View.ld_unit_zero (S := S1x32) hz2,
    View.ld_unit_zero (S := S32x512) hz2, View.ld_unit_zero (S := S1x512) hz2]
  obtain ⟨e00, e01, e02, e10, e11, e20, e21, e30, e31, e40, e41, e50, e51, e52⟩ := idx_facts t
  funext y
  show k0_pay1 (iblk m c 0 t) (iblk m c 1 t) (iblk m c 2 t) (iblk m c 3 t) (iblk m c 4 t) y
      = gated (Ideal.ofBits .f32 0x39800000#32) (V m c main_v1) (V m c main_arg1) (V m c main_v2) (V m c main_arg3) (V m c main_v3)
          (((cfg0.win 5).blk t).view.emb y)
  refine pay_eq_gated (V m c main_v1) (V m c main_arg1) (V m c main_v2) (V m c main_arg3) (V m c main_v3)
    (iblk m c 0 t) (iblk m c 1 t) (iblk m c 2 t) (iblk m c 3 t) (iblk m c 4 t) (pt t) ?_ ?_ ?_ ?_ ?_ y _ ?_ ?_ ?_
  · intro s cc
    show V m c main_v1 (((cfg0.win 0).blk t).view.emb (ix3 (0 : Fin 1) s cc)) = V m c main_v1 (ix3 (pt t) s cc)
    refine congrArg (V m c main_v1) ?_
    funext a; apply Fin.ext
    match a with
    | ⟨0, _⟩ => show win0_0.index t (0 : Fin 3) * 1 + 1 * 0 = t.val; omega
    | ⟨1, _⟩ => show win0_0.index t (1 : Fin 3) * 4096 + 1 * s.val = s.val; omega
    | ⟨2, _⟩ => show win0_0.index t (2 : Fin 3) * 512 + 1 * cc.val = cc.val; omega
  · funext z
    show V m c main_arg1 (((cfg0.win 1).blk t).view.emb z) = V m c main_arg1 z
    refine congrArg (V m c main_arg1) ?_
    funext a; apply Fin.ext
    match a with
    | ⟨0, _⟩ => show win0_1.index t (0 : Fin 2) * 512 + 1 * (z 0).val = (z 0).val; omega
    | ⟨1, _⟩ => show win0_1.index t (1 : Fin 2) * 32 + 1 * (z 1).val = (z 1).val; omega
  · funext z
    show V m c main_v2 (((cfg0.win 2).blk t).view.emb z) = V m c main_v2 z
    refine congrArg (V m c main_v2) ?_
    funext a; apply Fin.ext
    match a with
    | ⟨0, _⟩ => show win0_2.index t (0 : Fin 2) * 1 + 1 * (z 0).val = (z 0).val; omega
    | ⟨1, _⟩ => show win0_2.index t (1 : Fin 2) * 32 + 1 * (z 1).val = (z 1).val; omega
  · funext z
    show V m c main_arg3 (((cfg0.win 3).blk t).view.emb z) = V m c main_arg3 z
    refine congrArg (V m c main_arg3) ?_
    funext a; apply Fin.ext
    match a with
    | ⟨0, _⟩ => show win0_3.index t (0 : Fin 2) * 32 + 1 * (z 0).val = (z 0).val; omega
    | ⟨1, _⟩ => show win0_3.index t (1 : Fin 2) * 512 + 1 * (z 1).val = (z 1).val; omega
  · funext z
    show V m c main_v3 (((cfg0.win 4).blk t).view.emb z) = V m c main_v3 z
    refine congrArg (V m c main_v3) ?_
    funext a; apply Fin.ext
    match a with
    | ⟨0, _⟩ => show win0_4.index t (0 : Fin 2) * 1 + 1 * (z 0).val = (z 0).val; omega
    | ⟨1, _⟩ => show win0_4.index t (1 : Fin 2) * 512 + 1 * (z 1).val = (z 1).val; omega
  · show win0_5.index t (0 : Fin 3) * 1 + 1 * (y 0).val = t.val
    have hy : (y 0).val < 1 := (y 0).isLt
    omega
  · show win0_5.index t (1 : Fin 3) * 4096 + 1 * (y 1).val = (y 1).val; omega
  · show win0_5.index t (2 : Fin 3) * 512 + 1 * (y 2).val = (y 2).val; omega

/-- An index of the output array is in point t's block iff each coordinate is in the block's range on its axis. -/
theorem mem_blk (t : Fin cfg0.N) (i : S8x4096x512.Idx) :
    i ∈ ((cfg0.win 5).blk t).view.set ↔ ∀ a : Fin 3, win0_5.index t a * S1x4096x512.size a ≤ (i a).val
      ∧ (i a).val < win0_5.index t a * S1x4096x512.size a + S1x4096x512.size a := by
  show i ∈ ((View.whole main_v4).slice (win0_5.rect t)).set ↔ _
  rw [View.set_slice_whole, Rect.mem_set_unit]
  exact Iff.rfl

/-- The output array after the region: row-block n is covered by point n, so the array is the gated function everywhere. -/
theorem final (c : Dev nD) : (dats m 0 c).arrAt 5 cfg0.N
    = gated (Ideal.ofBits .f32 0x39800000#32) (V m c main_v1) (V m c main_arg1) (V m c main_v2) (V m c main_arg3) (V m c main_v3) :=
  (dats m 0 c).arrAt_eq_of_cover 5 _ (fun t _ => flushed_eq m c t) fun i => by
    have hN : cfg0.N = 8 := N_0
    have hi0 : (i 0).val < 8 := (i 0).isLt
    have hi1 : (i 1).val < 4096 := (i 1).isLt
    have hi2 : (i 2).val < 512 := (i 2).isLt
    refine ⟨⟨(i 0).val, by omega⟩, flush0_5 _, ?_⟩
    rw [mem_blk]
    obtain ⟨-, -, -, -, -, -, -, -, -, -, -, e50', e51, e52⟩ := idx_facts ⟨(i 0).val, by omega⟩
    have e50 : win0_5.index (⟨(i 0).val, by omega⟩ : Fin cfg0.N) (0 : Fin 3) = (i 0).val := e50'
    intro a
    match a with
    | ⟨0, _⟩ =>
      show win0_5.index _ (0 : Fin 3) * 1 ≤ (i 0).val ∧ (i 0).val < win0_5.index _ (0 : Fin 3) * 1 + 1
      rw [e50]; omega
    | ⟨1, _⟩ =>
      show win0_5.index _ (1 : Fin 3) * 4096 ≤ (i 1).val ∧ (i 1).val < win0_5.index _ (1 : Fin 3) * 4096 + 4096
      rw [e51]; omega
    | ⟨2, _⟩ =>
      show win0_5.index _ (2 : Fin 3) * 512 ≤ (i 2).val ∧ (i 2).val < win0_5.index _ (2 : Fin 3) * 512 + 512
      rw [e52]; omega

end Cert.KernelIdeal.KValue

end
-- ==== Proof.KernelHost.lean ====
/-
  The lines around the region, entry by entry.

  Before the region the argument x : [8, 512, 16, 16, 16] is transposed to channels-last and its three spatial axes are
  merged into one of 4096 positions: the region's input at (n, s, c') is x at channel c' of batch entry n, the position's
  three base-16 digits as spatial coordinates. The two bias vectors get a leading unit axis, which moves no entry.
  After the region the same two steps are undone: the result at (n, c, d, h, w) is the region's output at
  (n, (d * 16 + h) * 16 + w, c). Each reshape is read through the row-major position of its two indices, each
  transpose axis by axis.
-/
import proofs.«146628_g2000006015755092_pallasbulk_264_5_alg».proof.Proof.Spec
import proofs.«146628_g2000006015755092_pallasbulk_264_5_alg».proof.Proof.Gen.KernelIdeal.Frame
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.Tactic

variable (m : (ℓ : Loc nD τ sig) → Buf (Elt Ideal) ℓ)

theorem V_main_v1_eq (c : Dev nD) : (V m c main_v1 : S8x4096x512.Idx → EReal)
    = shapeCast S8x4096x512 (transpose S8x16x16x16x512 [0, 2, 3, 4, 1] (m ((c.tc : Thread nD τ).loc main_arg0) : S8x512x16x16x16.Idx → EReal)
        transposes_S8x512x16x16x16_S8x16x16x16x512_0_2_3_4_1) shapeCasts_S8x16x16x16x512_S8x4096x512 := by
  show StableHlo.after hostOps0 (fun b => m (c, b)) (Proc.devRef .tc main_v1) = _
  after_results
  rfl

theorem V_main_v2_eq (c : Dev nD) : (V m c main_v2 : S1x32.Idx → EReal)
    = shapeCast S1x32 (m ((c.tc : Thread nD τ).loc main_arg2) : S32.Idx → EReal) shapeCasts_S32_S1x32 := by
  show StableHlo.after hostOps0 (fun b => m (c, b)) (Proc.devRef .tc main_v2) = _
  after_results
  rfl

theorem V_main_v3_eq (c : Dev nD) : (V m c main_v3 : S1x512.Idx → EReal)
    = shapeCast S1x512 (m ((c.tc : Thread nD τ).loc main_arg4) : S512.Idx → EReal) shapeCasts_S512_S1x512 := by
  show StableHlo.after hostOps0 (fun b => m (c, b)) (Proc.devRef .tc main_v3) = _
  after_results
  rfl

/-- The region's input array at (n, s, c') is the argument at channel c' of batch entry n, spatial position s. -/
theorem V_main_v1_apply (c : Dev nD) (n : Fin 8) (s : Fin 4096) (c' : Fin 512) :
    (V m c main_v1 : S8x4096x512.Idx → EReal) (ix3 n s c')
      = (m ((c.tc : Thread nD τ).loc main_arg0) : S8x512x16x16x16.Idx → EReal) (Cert.Spec.cell n c' s) := by
  rw [V_main_v1_eq]
  have hs := s.isLt
  refine (shapeCast_apply _ _ (ix3 n s c') (ix5 n (⟨s.val / 256, by omega⟩ : Fin 16) (⟨s.val / 16 % 16, by omega⟩ : Fin 16)
    (⟨s.val % 16, by omega⟩ : Fin 16) c') ?_).trans ?_
  · rw [Shape.rowMajor_val_five, Shape.rowMajor_val_three]
    show (((n.val * 16 + s.val / 256) * 16 + s.val / 16 % 16) * 16 + s.val % 16) * 512 + c'.val = (n.val * 4096 + s.val) * 512 + c'.val
    omega
  · refine transpose_apply _ _ _ _ (Cert.Spec.cell n c' s) fun b => ?_
    match b with
    | ⟨0, _⟩ => rfl
    | ⟨1, _⟩ => rfl
    | ⟨2, _⟩ => rfl
    | ⟨3, _⟩ => rfl
    | ⟨4, _⟩ => rfl

theorem V_main_v2_apply (c : Dev nD) (u : Fin 1) (j : Fin 32) :
    (V m c main_v2 : S1x32.Idx → EReal) (ix2 u j) = (m ((c.tc : Thread nD τ).loc main_arg2) : S32.Idx → EReal) (ix1 j) := by
  rw [V_main_v2_eq]
  exact shapeCast_a_1a_apply _ _ u j

theorem V_main_v3_apply (c : Dev nD) (u : Fin 1) (j : Fin 512) :
    (V m c main_v3 : S1x512.Idx → EReal) (ix2 u j) = (m ((c.tc : Thread nD τ).loc main_arg4) : S512.Idx → EReal) (ix1 j) := by
  rw [V_main_v3_eq]
  exact shapeCast_a_1a_apply _ _ u j

/-- The lines after the region, entry by entry: the result at (n, c, d, h, w) is the region's output at (n, pos d h w, c). -/
theorem tail_apply (A : S8x4096x512.Idx → EReal) (n : Fin 8) (c : Fin 512) (d h w : Fin 16) :
    transpose S8x512x16x16x16 [0, 4, 1, 2, 3] (shapeCast S8x16x16x16x512 A shapeCasts_S8x4096x512_S8x16x16x16x512)
        transposes_S8x16x16x16x512_S8x512x16x16x16_0_4_1_2_3 (ix5 n c d h w)
      = A (ix3 n (Cert.Spec.pos d h w) c) := by
  refine (transpose_apply _ _ _ (ix5 n c d h w) (ix5 n d h w c) fun b => ?_).trans ?_
  · match b with
    | ⟨0, _⟩ => rfl
    | ⟨1, _⟩ => rfl
    | ⟨2, _⟩ => rfl
    | ⟨3, _⟩ => rfl
    | ⟨4, _⟩ => rfl
  · refine shapeCast_apply _ _ (ix5 n d h w c) (ix3 n (Cert.Spec.pos d h w) c) ?_
    rw [Shape.rowMajor_val_five, Shape.rowMajor_val_three]
    show (n.val * 4096 + ((d.val * 16 + h.val) * 16 + w.val)) * 512 + c.val = (((n.val * 16 + d.val) * 16 + h.val) * 16 + w.val) * 512 + c.val
    omega

end Cert.KernelIdeal.KValue

end
-- ==== Proof.KernelRun.lean ====
/-
  The kernel's run, read.

  The region's output array is the gated function of the arrays the region finds (the blocks module); those arrays are
  the arguments re-laid (the module on the lines around the region): the input at (n, s, c') is x at channel c' of batch
  entry n and position s, so the sum over the 4096 positions of a channel is the specification's pooled value, the
  hidden row and the gate follow term by term in the same order of summation, and the result at (n, c, d, h, w), which
  is the output array at (n, (d * 16 + h) * 16 + w, c), is x (n, c, d, h, w) times the gate of (n, c). No entry needs
  to be finite: both sides are the same sums, products and maxima.
-/
import proofs.«146628_g2000006015755092_pallasbulk_264_5_alg».proof.Proof.Spec
import proofs.«146628_g2000006015755092_pallasbulk_264_5_alg».proof.Proof.Gen.KernelIdeal.Frame
import proofs.«146628_g2000006015755092_pallasbulk_264_5_alg».proof.Proof.KernelBlocks
import proofs.«146628_g2000006015755092_pallasbulk_264_5_alg».proof.Proof.KernelHost

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.Tactic

variable (m : (ℓ : Loc nD τ sig) → Buf (Elt Ideal) ℓ) (ρ : Dev nD → PrngReg)

/-- The gated function of the arrays the region finds, at (n, pos d h w, c), is the specification at (n, c, d, h, w). -/
theorem gated_eq_out (c : Dev nD) (n : Fin 8) (cc : Fin 512) (d h w : Fin 16) :
    gated (Ideal.ofBits .f32 0x39800000#32) (V m c main_v1) (V m c main_arg1) (V m c main_v2) (V m c main_arg3) (V m c main_v3)
        (ix3 n (Cert.Spec.pos d h w) cc)
      = Cert.Spec.out (Ideal.ofBits .f32 0x39800000#32) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix5 n cc d h w) := by
  show gatedAt (Ideal.ofBits .f32 0x39800000#32) (V m c main_v1) (V m c main_arg1) (V m c main_v2) (V m c main_arg3) (V m c main_v3) n (Cert.Spec.pos d h w) cc = _
  unfold gatedAt Cert.Spec.out Cert.Spec.gate Cert.Spec.hidden Cert.Spec.pooled
  rw [V_main_arg1 m c, V_main_arg3 m c]
  refine congrArg₂ (· * ·) ((V_main_v1_apply m c n _ cc).trans (congrArg _ (Cert.Spec.cell_pos n cc d h w))) ?_
  refine congrArg Ideal.logistic ?_
  refine congrArg₂ (· + ·) (Finset.sum_congr rfl fun j _ => ?_) (V_main_v3_apply m c 0 cc)
  refine congrArg (· * _) ?_
  refine congrArg (max · 0) ?_
  refine congrArg₂ (· + ·) (Finset.sum_congr rfl fun c' _ => ?_) (V_main_v2_apply m c 0 j)
  refine congrArg (· * _) ?_
  refine congrArg (· * _) ?_
  exact Finset.sum_congr rfl fun s' _ => V_main_v1_apply m c n s' c'

/-- The result buffer after the lines that follow the region is the specification of the five arguments. -/
theorem result_eq (c : Dev nD) :
    Pipeline.afterTail₀ cfgs (dats m) 0 (V0 m) [hostOps1] c main_v6
      = Cert.Spec.out (Ideal.ofBits .f32 0x39800000#32) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v4)
      = gated (Ideal.ofBits .f32 0x39800000#32) (V m c main_v1) (V m c main_arg1) (V m c main_v2) (V m c main_arg3) (V m c main_v3) :=
    (Pipeline.withArrays_arr spec0 launch0.win.arr_inj c _ _ 5).trans (final m c)
  rw [hw]
  funext i
  obtain ⟨n, cc, d, h, w, rfl⟩ : ∃ (n : Fin 8) (cc : Fin 512) (d h w : Fin 16), i = ix5 n cc d h w :=
    ⟨i 0, i 1, i 2, i 3, i 4, eq_ix5 i⟩
  exact (tail_apply _ n cc d h w).trans (gated_eq_out m c n cc d h w)

/-- The kernel's run: from any memory, the result buffer ends at the specification of the five arguments, which end as launched. -/
theorem run : θ_run (defs (F := Ideal)) (onTc (τ := τ) (main (F := Ideal))) ⟨m, fun _ => 0, ρ⟩ fun r => ∀ c : Dev nD,
      r.2.mem ((c.tc : Thread nD τ).loc main_v6) = Cert.Spec.out (Ideal.ofBits .f32 0x39800000#32) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.KValue

end
-- ==== Proof.lean ====
/-
  The certificate: a fused squeeze-and-excite kernel against its two-pass reference, equal on the extended reals.

  Both programs multiply every entry of x : [8, 512, 16, 16, 16] by a gate that depends on the entry's batch entry n and
  channel c only: the logistic function of (sum over j of max (sum over c' of (mean of channel c' of batch entry n) * w1 c' j
  + b1 j) 0 * w2 j c + b2 c).  The kernel sees x channels-last as [8, 4096, 512], takes a batch entry per grid point, sums its
  4096 rows, multiplies by 2^-12, and applies the two small products, the logistic function and the scaling in one body.  The
  reference sees x as [8, 512, 4096], pools it in two tiles of 2048 lanes accumulated in a resident block, divides by 4096 and
  applies the small products and 1 / (1 + exp (-t)) on the host, and scales in a second call.  On the extended reals a sum may
  be taken in any grouping, a quotient by 4096 is the product with 2^-12, and 1 / (1 + exp (-t)) is the logistic function: so
  both results are the one function of Proof/Spec.lean, and no entry need be finite.

  The three frames are the generated ones; the ideal pass rewrote nothing, so its conjunct is trivial; the value conjunct
  joins the kernel's run (Proof/KernelRun.lean) and the reference's run (Proof/RefValue.lean) at the common specification.
-/
import proofs.«146628_g2000006015755092_pallasbulk_264_5_alg».proof.Defs
import proofs.«146628_g2000006015755092_pallasbulk_264_5_alg».proof.Proof.Gen.Kernel
import proofs.«146628_g2000006015755092_pallasbulk_264_5_alg».proof.Proof.Gen.Kernel.Frame
import proofs.«146628_g2000006015755092_pallasbulk_264_5_alg».proof.Proof.Gen.KernelIdeal
import proofs.«146628_g2000006015755092_pallasbulk_264_5_alg».proof.Proof.Gen.KernelIdeal.Frame
import proofs.«146628_g2000006015755092_pallasbulk_264_5_alg».proof.Proof.Gen.ReferenceIdeal
import proofs.«146628_g2000006015755092_pallasbulk_264_5_alg».proof.Proof.Gen.ReferenceIdeal.Frame
import proofs.«146628_g2000006015755092_pallasbulk_264_5_alg».proof.Proof.Gen.Pre_finite_inputs
import proofs.«146628_g2000006015755092_pallasbulk_264_5_alg».proof.Proof.Spec
import proofs.«146628_g2000006015755092_pallasbulk_264_5_alg».proof.Proof.RefValue
import proofs.«146628_g2000006015755092_pallasbulk_264_5_alg».proof.Proof.KernelRun
import Idealize.ShloMosaic.Adequacy
import Idealize.ShloMosaic.Init

noncomputable section

namespace Cert.Proof

open Idealize.ShloMosaic Idealize.SL.Sem

/-- Run from memories that agree on the five arguments, the idealized kernel and the idealized reference both end with the
    specification of those arguments in their result buffers, and with the arguments unchanged. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
